-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S8192x16x128 : Shape := ⟨3, ![8192, 16, 128]⟩
abbrev S8192x16 : Shape := ⟨2, ![8192, 16]⟩
abbrev S8192 : Shape := ⟨1, ![8192]⟩
abbrev S2048x64x128 : Shape := ⟨3, ![2048, 64, 128]⟩
abbrev S2048x64 : Shape := ⟨2, ![2048, 64]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S2048x64 .f32) (main_arg7 : FVec F S2048x64 .f32) (main_arg8 : FVec F S2048 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048x64 .f32 := Host.absf main_arg6
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S2048x64 .f32 := Host.absf main_arg7
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S512x2048 .f32) (main_arg1 : IVec S8192x16x128 32) (main_arg2 : FVec F S8192x16 .f32) (main_arg3 : FVec F S8192x16 .f32) (main_arg4 : FVec F S8192 .f32) (main_arg5 : IVec S2048x64x128 32) (main_arg6 : FVec F S2048x64 .f32) (main_arg7 : FVec F S2048x64 .f32) (main_arg8 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S8192x16 .f32 := Host.absf main_arg2
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg6 main_arg7 main_arg8 main_v13 main_v16
-- ==== Kernel.lean ====
abbrev S512x2048 : Shape := ⟨2, ![512, 2048]⟩
abbrev S8192x16x128 : Shape := ⟨3, ![8192, 16, 128]⟩
abbrev S8192x16 : Shape := ⟨2, ![8192, 16]⟩
abbrev S8192 : Shape := ⟨1, ![8192]⟩
abbrev S2048x64x128 : Shape := ⟨3, ![2048, 64, 128]⟩
abbrev S2048x64 : Shape := ⟨2, ![2048, 64]⟩
abbrev S2048 : Shape := ⟨1, ![2048]⟩
abbrev S8192x2048 : Shape := ⟨2, ![8192, 2048]⟩
abbrev S2048x8192 : Shape := ⟨2, ![2048, 8192]⟩
abbrev S1x8192 : Shape := ⟨2, ![1, 8192]⟩
abbrev S512x8192 : Shape := ⟨2, ![512, 8192]⟩
abbrev S1024x2048 : Shape := ⟨2, ![1024, 2048]⟩
abbrev S1024x16 : Shape := ⟨2, ![1024, 16]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1024x128 : Shape := ⟨2, ![1024, 128]⟩
abbrev S1024x1 : Shape := ⟨2, ![1024, 1]⟩
abbrev S1x2048 : Shape := ⟨2, ![1, 2048]⟩
abbrev S256x8192 : Shape := ⟨2, ![256, 8192]⟩
abbrev S256x64 : Shape := ⟨2, ![256, 64]⟩
abbrev S1x256 : Shape := ⟨2, ![1, 256]⟩
abbrev S512x256 : Shape := ⟨2, ![512, 256]⟩
abbrev S256x512 : Shape := ⟨2, ![256, 512]⟩
abbrev S256x128 : Shape := ⟨2, ![256, 128]⟩
abbrev S256x1 : Shape := ⟨2, ![256, 1]⟩

abbrev nBuf : Space → Nat
  | .hbm => 18
  | .vmem => 24
  | .smem => 0
  | _ => 0

abbrev bufTy : (tb : Table) → Fin (tcTables nBuf tb) → BufTy
  | .hbm, ⟨0, _⟩ => ⟨S512x2048, .f32⟩
  | .hbm, ⟨1, _⟩ => ⟨S8192x16x128, .i32⟩
  | .hbm, ⟨2, _⟩ => ⟨S8192x16, .f32⟩
  | .hbm, ⟨3, _⟩ => ⟨S8192x16, .f32⟩
  | .hbm, ⟨4, _⟩ => ⟨S8192, .f32⟩
  | .hbm, ⟨5, _⟩ => ⟨S2048x64x128, .i32⟩
  | .hbm, ⟨6, _⟩ => ⟨S2048x64, .f32⟩
  | .hbm, ⟨7, _⟩ => ⟨S2048x64, .f32⟩
  | .hbm, ⟨8, _⟩ => ⟨S2048, .f32⟩
  | .hbm, ⟨9, _⟩ => ⟨S8192x2048, .i32⟩
  | .hbm, ⟨10, _⟩ => ⟨S2048x8192, .i32⟩
  | .hbm, ⟨11, _⟩ => ⟨S8192x16, .f32⟩
  | .hbm, ⟨12, _⟩ => ⟨S2048x64, .f32⟩
  | .hbm, ⟨13, _⟩ => ⟨S512x2048, .bf16⟩
  | .hbm, ⟨14, _⟩ => ⟨S1x8192, .f32⟩
  | .hbm, ⟨15, _⟩ => ⟨S512x8192, .bf16⟩
  | .hbm, ⟨16, _⟩ => ⟨S1x2048, .f32⟩
  | .hbm, ⟨17, _⟩ => ⟨S512x2048, .f32⟩
  | .local _ .vmem, ⟨0, _⟩ => ⟨S512x2048, .bf16⟩
  | .local _ .vmem, ⟨1, _⟩ => ⟨S1024x2048, .i32⟩
  | .local _ .vmem, ⟨2, _⟩ => ⟨S1024x2048, .i32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x8192, .bf16⟩
  | .local _ .vmem, ⟨13, _⟩ => ⟨S256x8192, .i32⟩
  | .local _ .vmem, ⟨14, _⟩ => ⟨S256x8192, .i32⟩
  | .local _ .vmem, ⟨15, _⟩ => ⟨S256x64, .f32⟩
  | .local _ .vmem, ⟨16, _⟩ => ⟨S256x64, .f32⟩
  | .local _ .vmem, ⟨17, _⟩ => ⟨S256x64, .f32⟩
  | .local _ .vmem, ⟨18, _⟩ => ⟨S256x64, .f32⟩
  | .local _ .vmem, ⟨19, _⟩ => ⟨S1x256, .f32⟩
  | .local _ .vmem, ⟨20, _⟩ => ⟨S1x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8192x16x128_S8192x2048 : S8192x16x128.ShapeCasts S8192x2048
  shapeCasts_S2048x64x128_S2048x8192 : S2048x64x128.ShapeCasts S2048x8192
  bitsLt_bf16_f32 : FTy.bits .bf16 < FTy.bits .f32
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x512_0_0 : ∀ a, (![0, 0] : Fin 2 → Nat) a + S1024x512.size a ≤ S1024x2048.size a
  h_S1024x512 : 0 < S1024x512.numel
  shapeCasts_S1024x512_S1024x512 : S1024x512.ShapeCasts S1024x512
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  slices_S1024x512_o0_0_S1024x128 : S1024x512.Slices ![0, 0] S1024x128
  inb_S1024x16_S1024x1_0_0 : ∀ a, (![0, 0] : Fin 2 → Nat) a + S1024x1.size a ≤ S1024x16.size a
  h_S1024x1 : 0 < S1024x1.numel
  shapeCasts_S1024x1_S1024x1 : S1024x1.ShapeCasts S1024x1
  broadcasts_S1024x1_S1024x128 : S1024x1.Broadcasts S1024x128
  slices_S1024x512_o0_128_S1024x128 : S1024x512.Slices ![0, 128] S1024x128
  inb_S1024x16_S1024x1_0_1 : ∀ a, (![0, 1] : Fin 2 → Nat) a + S1024x1.size a ≤ S1024x16.size a
  slices_S1024x512_o0_256_S1024x128 : S1024x512.Slices ![0, 256] S1024x128
  inb_S1024x16_S1024x1_0_2 : ∀ a, (![0, 2] : Fin 2 → Nat) a + S1024x1.size a ≤ S1024x16.size a
  slices_S1024x512_o0_384_S1024x128 : S1024x512.Slices ![0, 384] S1024x128
  inb_S1024x16_S1024x1_0_3 : ∀ a, (![0, 3] : Fin 2 → Nat) a + S1024x1.size a ≤ S1024x16.size a
  concatenates_S1024x128_S1024x128_S1024x128_S1024x128_S1024x512_d1 : Shape.Concatenates [S1024x128, S1024x128, S1024x128, S1024x128] S1024x512 1
  inb_S1024x2048_S1024x512_0_512 : ∀ a, (![0, 512] : Fin 2 → Nat) a + S1024x512.size a ≤ S1024x2048.size a
  inb_S512x2048_S512x512_0_512 : ∀ a, (![0, 512] : Fin 2 → Nat) a + S512x512.size a ≤ S512x2048.size a
  inb_S1024x16_S1024x1_0_4 : ∀ a, (![0, 4] : Fin 2 → Nat) a + S1024x1.size a ≤ S1024x16.size a
  inb_S1024x16_S1024x1_0_5 : ∀ a, (![0, 5] : Fin 2 → Nat) a + S1024x1.size a ≤ S1024x16.size a
  inb_S1024x16_S1024x1_0_6 : ∀ a, (![0, 6] : Fin 2 → Nat) a + S1024x1.size a ≤ S1024x16.size a
  inb_S1024x16_S1024x1_0_7 : ∀ a, (![0, 7] : Fin 2 → Nat) a + S1024x1.size a ≤ S1024x16.size a
  inb_S1024x2048_S1024x512_0_1024 : ∀ a, (![0, 1024] : Fin 2 → Nat) a + S1024x512.size a ≤ S1024x2048.size a
  inb_S512x2048_S512x512_0_1024 : ∀ a, (![0, 1024] : Fin 2 → Nat) a + S512x512.size a ≤ S512x2048.size a
  inb_S1024x16_S1024x1_0_8 : ∀ a, (![0, 8] : Fin 2 → Nat) a + S1024x1.size a ≤ S1024x16.size a
  inb_S1024x16_S1024x1_0_9 : ∀ a, (![0, 9] : Fin 2 → Nat) a + S1024x1.size a ≤ S1024x16.size a
  inb_S1024x16_S1024x1_0_10 : ∀ a, (![0, 10] : Fin 2 → Nat) a + S1024x1.size a ≤ S1024x16.size a
  inb_S1024x16_S1024x1_0_11 : ∀ a, (![0, 11] : Fin 2 → Nat) a + S1024x1.size a ≤ S1024x16.size a
  inb_S1024x2048_S1024x512_0_1536 : ∀ a, (![0, 1536] : Fin 2 → Nat) a + S1024x512.size a ≤ S1024x2048.size a
  inb_S512x2048_S512x512_0_1536 : ∀ a, (![0, 1536] : Fin 2 → Nat) a + S512x512.size a ≤ S512x2048.size a
  inb_S1024x16_S1024x1_0_12 : ∀ a, (![0, 12] : Fin 2 → Nat) a + S1024x1.size a ≤ S1024x16.size a
  inb_S1024x16_S1024x1_0_13 : ∀ a, (![0, 13] : Fin 2 → Nat) a + S1024x1.size a ≤ S1024x16.size a
  inb_S1024x16_S1024x1_0_14 : ∀ a, (![0, 14] : Fin 2 → Nat) a + S1024x1.size a ≤ S1024x16.size a
  inb_S1024x16_S1024x1_0_15 : ∀ a, (![0, 15] : Fin 2 → Nat) a + S1024x1.size a ≤ S1024x16.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S2048_S1x2048 : S2048.ShapeCasts S1x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x8192_S256x512_0_0 : ∀ a, (![0, 0] : Fin 2 → Nat) a + S256x512.size a ≤ S256x8192.size a
  h_S256x512 : 0 < S256x512.numel
  shapeCasts_S256x512_S256x512 : S256x512.ShapeCasts S256x512
  inb_S512x8192_S512x512_0_0 : ∀ a, (![0, 0] : Fin 2 → Nat) a + S512x512.size a ≤ S512x8192.size a
  slices_S256x512_o0_0_S256x128 : S256x512.Slices ![0, 0] S256x128
  inb_S256x64_S256x1_0_0 : ∀ a, (![0, 0] : Fin 2 → Nat) a + S256x1.size a ≤ S256x64.size a
  h_S256x1 : 0 < S256x1.numel
  shapeCasts_S256x1_S256x1 : S256x1.ShapeCasts S256x1
  broadcasts_S256x1_S256x128 : S256x1.Broadcasts S256x128
  slices_S256x512_o0_128_S256x128 : S256x512.Slices ![0, 128] S256x128
  inb_S256x64_S256x1_0_1 : ∀ a, (![0, 1] : Fin 2 → Nat) a + S256x1.size a ≤ S256x64.size a
  slices_S256x512_o0_256_S256x128 : S256x512.Slices ![0, 256] S256x128
  inb_S256x64_S256x1_0_2 : ∀ a, (![0, 2] : Fin 2 → Nat) a + S256x1.size a ≤ S256x64.size a
  slices_S256x512_o0_384_S256x128 : S256x512.Slices ![0, 384] S256x128
  inb_S256x64_S256x1_0_3 : ∀ a, (![0, 3] : Fin 2 → Nat) a + S256x1.size a ≤ S256x64.size a
  concatenates_S256x128_S256x128_S256x128_S256x128_S256x512_d1 : Shape.Concatenates [S256x128, S256x128, S256x128, S256x128] S256x512 1
  inb_S256x8192_S256x512_0_512 : ∀ a, (![0, 512] : Fin 2 → Nat) a + S256x512.size a ≤ S256x8192.size a
  inb_S512x8192_S512x512_0_512 : ∀ a, (![0, 512] : Fin 2 → Nat) a + S512x512.size a ≤ S512x8192.size a
  inb_S256x64_S256x1_0_4 : ∀ a, (![0, 4] : Fin 2 → Nat) a + S256x1.size a ≤ S256x64.size a
  inb_S256x64_S256x1_0_5 : ∀ a, (![0, 5] : Fin 2 → Nat) a + S256x1.size a ≤ S256x64.size a
  inb_S256x64_S256x1_0_6 : ∀ a, (![0, 6] : Fin 2 → Nat) a + S256x1.size a ≤ S256x64.size a
  inb_S256x64_S256x1_0_7 : ∀ a, (![0, 7] : Fin 2 → Nat) a + S256x1.size a ≤ S256x64.size a
  inb_S256x8192_S256x512_0_1024 : ∀ a, (![0, 1024] : Fin 2 → Nat) a + S256x512.size a ≤ S256x8192.size a
  inb_S512x8192_S512x512_0_1024 : ∀ a, (![0, 1024] : Fin 2 → Nat) a + S512x512.size a ≤ S512x8192.size a
  inb_S256x64_S256x1_0_8 : ∀ a, (![0, 8] : Fin 2 → Nat) a + S256x1.size a ≤ S256x64.size a
  inb_S256x64_S256x1_0_9 : ∀ a, (![0, 9] : Fin 2 → Nat) a + S256x1.size a ≤ S256x64.size a
  inb_S256x64_S256x1_0_10 : ∀ a, (![0, 10] : Fin 2 → Nat) a + S256x1.size a ≤ S256x64.size a
  inb_S256x64_S256x1_0_11 : ∀ a, (![0, 11] : Fin 2 → Nat) a + S256x1.size a ≤ S256x64.size a
  inb_S256x8192_S256x512_0_1536 : ∀ a, (![0, 1536] : Fin 2 → Nat) a + S256x512.size a ≤ S256x8192.size a
  inb_S512x8192_S512x512_0_1536 : ∀ a, (![0, 1536] : Fin 2 → Nat) a + S512x512.size a ≤ S512x8192.size a
  inb_S256x64_S256x1_0_12 : ∀ a, (![0, 12] : Fin 2 → Nat) a + S256x1.size a ≤ S256x64.size a
  inb_S256x64_S256x1_0_13 : ∀ a, (![0, 13] : Fin 2 → Nat) a + S256x1.size a ≤ S256x64.size a
  inb_S256x64_S256x1_0_14 : ∀ a, (![0, 14] : Fin 2 → Nat) a + S256x1.size a ≤ S256x64.size a
  inb_S256x64_S256x1_0_15 : ∀ a, (![0, 15] : Fin 2 → Nat) a + S256x1.size a ≤ S256x64.size a
  inb_S256x8192_S256x512_0_2048 : ∀ a, (![0, 2048] : Fin 2 → Nat) a + S256x512.size a ≤ S256x8192.size a
  inb_S512x8192_S512x512_0_2048 : ∀ a, (![0, 2048] : Fin 2 → Nat) a + S512x512.size a ≤ S512x8192.size a
  inb_S256x64_S256x1_0_16 : ∀ a, (![0, 16] : Fin 2 → Nat) a + S256x1.size a ≤ S256x64.size a
  inb_S256x64_S256x1_0_17 : ∀ a, (![0, 17] : Fin 2 → Nat) a + S256x1.size a ≤ S256x64.size a
  inb_S256x64_S256x1_0_18 : ∀ a, (![0, 18] : Fin 2 → Nat) a + S256x1.size a ≤ S256x64.size a
  inb_S256x64_S256x1_0_19 : ∀ a, (![0, 19] : Fin 2 → Nat) a + S256x1.size a ≤ S256x64.size a
  inb_S256x8192_S256x512_0_2560 : ∀ a, (![0, 2560] : Fin 2 → Nat) a + S256x512.size a ≤ S256x8192.size a
  inb_S512x8192_S512x512_0_2560 : ∀ a, (![0, 2560] : Fin 2 → Nat) a + S512x512.size a ≤ S512x8192.size a
  inb_S256x64_S256x1_0_20 : ∀ a, (![0, 20] : Fin 2 → Nat) a + S256x1.size a ≤ S256x64.size a
  inb_S256x64_S256x1_0_21 : ∀ a, (![0, 21] : Fin 2 → Nat) a + S256x1.size a ≤ S256x64.size a
  inb_S256x64_S256x1_0_22 : ∀ a, (![0, 22] : Fin 2 → Nat) a + S256x1.size a ≤ S256x64.size a
  inb_S256x64_S256x1_0_23 : ∀ a, (![0, 23] : Fin 2 → Nat) a + S256x1.size a ≤ S256x64.size a
  inb_S256x8192_S256x512_0_3072 : ∀ a, (![0, 3072] : Fin 2 → Nat) a + S256x512.size a ≤ S256x8192.size a
  inb_S512x8192_S512x512_0_3072 : ∀ a, (![0, 3072] : Fin 2 → Nat) a + S512x512.size a ≤ S512x8192.size a
  inb_S256x64_S256x1_0_24 : ∀ a, (![0, 24] : Fin 2 → Nat) a + S256x1.size a ≤ S256x64.size a
  inb_S256x64_S256x1_0_25 : ∀ a, (![0, 25] : Fin 2 → Nat) a + S256x1.size a ≤ S256x64.size a
  inb_S256x64_S256x1_0_26 : ∀ a, (![0, 26] : Fin 2 → Nat) a + S256x1.size a ≤ S256x64.size a
  inb_S256x64_S256x1_0_27 : ∀ a, (![0, 27] : Fin 2 → Nat) a + S256x1.size a ≤ S256x64.size a
  inb_S256x8192_S256x512_0_3584 : ∀ a, (![0, 3584] : Fin 2 → Nat) a + S256x512.size a ≤ S256x8192.size a
  inb_S512x8192_S512x512_0_3584 : ∀ a, (![0, 3584] : Fin 2 → Nat) a + S512x512.size a ≤ S512x8192.size a
  inb_S256x64_S256x1_0_28 : ∀ a, (![0, 28] : Fin 2 → Nat) a + S256x1.size a ≤ S256x64.size a
  inb_S256x64_S256x1_0_29 : ∀ a, (![0, 29] : Fin 2 → Nat) a + S256x1.size a ≤ S256x64.size a
  inb_S256x64_S256x1_0_30 : ∀ a, (![0, 30] : Fin 2 → Nat) a + S256x1.size a ≤ S256x64.size a
  inb_S256x64_S256x1_0_31 : ∀ a, (![0, 31] : Fin 2 → Nat) a + S256x1.size a ≤ S256x64.size a
  inb_S256x8192_S256x512_0_4096 : ∀ a, (![0, 4096] : Fin 2 → Nat) a + S256x512.size a ≤ S256x8192.size a
  inb_S512x8192_S512x512_0_4096 : ∀ a, (![0, 4096] : Fin 2 → Nat) a + S512x512.size a ≤ S512x8192.size a
  inb_S256x64_S256x1_0_32 : ∀ a, (![0, 32] : Fin 2 → Nat) a + S256x1.size a ≤ S256x64.size a
  inb_S256x64_S256x1_0_33 : ∀ a, (![0, 33] : Fin 2 → Nat) a + S256x1.size a ≤ S256x64.size a
  inb_S256x64_S256x1_0_34 : ∀ a, (![0, 34] : Fin 2 → Nat) a + S256x1.size a ≤ S256x64.size a
  inb_S256x64_S256x1_0_35 : ∀ a, (![0, 35] : Fin 2 → Nat) a + S256x1.size a ≤ S256x64.size a
  inb_S256x8192_S256x512_0_4608 : ∀ a, (![0, 4608] : Fin 2 → Nat) a + S256x512.size a ≤ S256x8192.size a
  inb_S512x8192_S512x512_0_4608 : ∀ a, (![0, 4608] : Fin 2 → Nat) a + S512x512.size a ≤ S512x8192.size a
  inb_S256x64_S256x1_0_36 : ∀ a, (![0, 36] : Fin 2 → Nat) a + S256x1.size a ≤ S256x64.size a
  inb_S256x64_S256x1_0_37 : ∀ a, (![0, 37] : Fin 2 → Nat) a + S256x1.size a ≤ S256x64.size a
  inb_S256x64_S256x1_0_38 : ∀ a, (![0, 38] : Fin 2 → Nat) a + S256x1.size a ≤ S256x64.size a
  inb_S256x64_S256x1_0_39 : ∀ a, (![0, 39] : Fin 2 → Nat) a + S256x1.size a ≤ S256x64.size a
  inb_S256x8192_S256x512_0_5120 : ∀ a, (![0, 5120] : Fin 2 → Nat) a + S256x512.size a ≤ S256x8192.size a
  inb_S512x8192_S512x512_0_5120 : ∀ a, (![0, 5120] : Fin 2 → Nat) a + S512x512.size a ≤ S512x8192.size a
  inb_S256x64_S256x1_0_40 : ∀ a, (![0, 40] : Fin 2 → Nat) a + S256x1.size a ≤ S256x64.size a
  inb_S256x64_S256x1_0_41 : ∀ a, (![0, 41] : Fin 2 → Nat) a + S256x1.size a ≤ S256x64.size a
  inb_S256x64_S256x1_0_42 : ∀ a, (![0, 42] : Fin 2 → Nat) a + S256x1.size a ≤ S256x64.size a
  inb_S256x64_S256x1_0_43 : ∀ a, (![0, 43] : Fin 2 → Nat) a + S256x1.size a ≤ S256x64.size a
  inb_S256x8192_S256x512_0_5632 : ∀ a, (![0, 5632] : Fin 2 → Nat) a + S256x512.size a ≤ S256x8192.size a
  inb_S512x8192_S512x512_0_5632 : ∀ a, (![0, 5632] : Fin 2 → Nat) a + S512x512.size a ≤ S512x8192.size a
  inb_S256x64_S256x1_0_44 : ∀ a, (![0, 44] : Fin 2 → Nat) a + S256x1.size a ≤ S256x64.size a
  inb_S256x64_S256x1_0_45 : ∀ a, (![0, 45] : Fin 2 → Nat) a + S256x1.size a ≤ S256x64.size a
  inb_S256x64_S256x1_0_46 : ∀ a, (![0, 46] : Fin 2 → Nat) a + S256x1.size a ≤ S256x64.size a
  inb_S256x64_S256x1_0_47 : ∀ a, (![0, 47] : Fin 2 → Nat) a + S256x1.size a ≤ S256x64.size a
  inb_S256x8192_S256x512_0_6144 : ∀ a, (![0, 6144] : Fin 2 → Nat) a + S256x512.size a ≤ S256x8192.size a
  inb_S512x8192_S512x512_0_6144 : ∀ a, (![0, 6144] : Fin 2 → Nat) a + S512x512.size a ≤ S512x8192.size a
  inb_S256x64_S256x1_0_48 : ∀ a, (![0, 48] : Fin 2 → Nat) a + S256x1.size a ≤ S256x64.size a
  inb_S256x64_S256x1_0_49 : ∀ a, (![0, 49] : Fin 2 → Nat) a + S256x1.size a ≤ S256x64.size a
  inb_S256x64_S256x1_0_50 : ∀ a, (![0, 50] : Fin 2 → Nat) a + S256x1.size a ≤ S256x64.size a
  inb_S256x64_S256x1_0_51 : ∀ a, (![0, 51] : Fin 2 → Nat) a + S256x1.size a ≤ S256x64.size a
  inb_S256x8192_S256x512_0_6656 : ∀ a, (![0, 6656] : Fin 2 → Nat) a + S256x512.size a ≤ S256x8192.size a
  inb_S512x8192_S512x512_0_6656 : ∀ a, (![0, 6656] : Fin 2 → Nat) a + S512x512.size a ≤ S512x8192.size a
  inb_S256x64_S256x1_0_52 : ∀ a, (![0, 52] : Fin 2 → Nat) a + S256x1.size a ≤ S256x64.size a
  inb_S256x64_S256x1_0_53 : ∀ a, (![0, 53] : Fin 2 → Nat) a + S256x1.size a ≤ S256x64.size a
  inb_S256x64_S256x1_0_54 : ∀ a, (![0, 54] : Fin 2 → Nat) a + S256x1.size a ≤ S256x64.size a
  inb_S256x64_S256x1_0_55 : ∀ a, (![0, 55] : Fin 2 → Nat) a + S256x1.size a ≤ S256x64.size a
  inb_S256x8192_S256x512_0_7168 : ∀ a, (![0, 7168] : Fin 2 → Nat) a + S256x512.size a ≤ S256x8192.size a
  inb_S512x8192_S512x512_0_7168 : ∀ a, (![0, 7168] : Fin 2 → Nat) a + S512x512.size a ≤ S512x8192.size a
  inb_S256x64_S256x1_0_56 : ∀ a, (![0, 56] : Fin 2 → Nat) a + S256x1.size a ≤ S256x64.size a
  inb_S256x64_S256x1_0_57 : ∀ a, (![0, 57] : Fin 2 → Nat) a + S256x1.size a ≤ S256x64.size a
  inb_S256x64_S256x1_0_58 : ∀ a, (![0, 58] : Fin 2 → Nat) a + S256x1.size a ≤ S256x64.size a
  inb_S256x64_S256x1_0_59 : ∀ a, (![0, 59] : Fin 2 → Nat) a + S256x1.size a ≤ S256x64.size a
  inb_S256x8192_S256x512_0_7680 : ∀ a, (![0, 7680] : Fin 2 → Nat) a + S256x512.size a ≤ S256x8192.size a
  inb_S512x8192_S512x512_0_7680 : ∀ a, (![0, 7680] : Fin 2 → Nat) a + S512x512.size a ≤ S512x8192.size a
  inb_S256x64_S256x1_0_60 : ∀ a, (![0, 60] : Fin 2 → Nat) a + S256x1.size a ≤ S256x64.size a
  inb_S256x64_S256x1_0_61 : ∀ a, (![0, 61] : Fin 2 → Nat) a + S256x1.size a ≤ S256x64.size a
  inb_S256x64_S256x1_0_62 : ∀ a, (![0, 62] : Fin 2 → Nat) a + S256x1.size a ≤ S256x64.size a
  inb_S256x64_S256x1_0_63 : ∀ a, (![0, 63] : Fin 2 → Nat) a + S256x1.size a ≤ S256x64.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x512_S1024x512_S512x1024_1_1_0_0_n_n_wf : DotDims.WF S512x512 S1024x512 S512x1024 [1] [1] [0] [0] [] []
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .i32 = 32 ∨ (Rect.block (s := S8192x2048) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x8192.size a
  hwx0_5 : ∀ i : grid0.Coords, EltTy.bits .bf16 = 32 ∨ (Rect.block (s := S512x8192) S512x1024.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S512x8192.size a
  hwx1_0 : ∀ i : grid1.Coords, EltTy.bits .bf16 = 32 ∨ (Rect.block (s := S512x8192) S512x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .i32 = 32 ∨ (Rect.block (s := S2048x8192) S256x8192.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S2048x64.size a
  hwx1_2 : ∀ i : grid1.Coords, EltTy.bits .f32 = 32 ∨ (Rect.block (s := S2048x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S2048x64.size a
  hwx1_3 : ∀ i : grid1.Coords, EltTy.bits .f32 = 32 ∨ (Rect.block (s := S2048x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x2048.size a
  hwx1_4 : ∀ i : grid1.Coords, EltTy.bits .f32 = 32 ∨ (Rect.block (s := S1x2048) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x2048.size a
  hwx1_5 : ∀ i : grid1.Coords, EltTy.bits .f32 = 32 ∨ (Rect.block (s := S512x2048) S512x256.size (cc1_transform_5 i) (hinb1_5 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_v4) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S512x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x2048 : Shape := ⟨2, ![512, 2048]⟩
abbrev S8192x16x128 : Shape := ⟨3, ![8192, 16, 128]⟩
abbrev S8192x16 : Shape := ⟨2, ![8192, 16]⟩
abbrev S8192 : Shape := ⟨1, ![8192]⟩
abbrev S2048x64x128 : Shape := ⟨3, ![2048, 64, 128]⟩
abbrev S2048x64 : Shape := ⟨2, ![2048, 64]⟩
abbrev S2048 : Shape := ⟨1, ![2048]⟩
abbrev S8192x16x1 : Shape := ⟨3, ![8192, 16, 1]⟩
abbrev S8192x2048 : Shape := ⟨2, ![8192, 2048]⟩
abbrev S2048x8192 : Shape := ⟨2, ![2048, 8192]⟩
abbrev S512x8192 : Shape := ⟨2, ![512, 8192]⟩
abbrev S1x8192 : Shape := ⟨2, ![1, 8192]⟩
abbrev S_ : Shape := ⟨0, ![]⟩
abbrev S2048x64x1 : Shape := ⟨3, ![2048, 64, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8192x16x128, .i32⟩
  | .hbm, ⟨2, _⟩ => ⟨S8192x16, .f32⟩
  | .hbm, ⟨3, _⟩ => ⟨S8192x16, .f32⟩
  | .hbm, ⟨4, _⟩ => ⟨S8192, .f32⟩
  | .hbm, ⟨5, _⟩ => ⟨S2048x64x128, .i32⟩
  | .hbm, ⟨6, _⟩ => ⟨S2048x64, .f32⟩
  | .hbm, ⟨7, _⟩ => ⟨S2048x64, .f32⟩
  | .hbm, ⟨8, _⟩ => ⟨S2048, .f32⟩
  | .hbm, ⟨9, _⟩ => ⟨S8192x16x128, .f32⟩
  | .hbm, ⟨10, _⟩ => ⟨S8192x16x1, .f32⟩
  | .hbm, ⟨11, _⟩ => ⟨S8192x16x128, .f32⟩
  | .hbm, ⟨12, _⟩ => ⟨S8192x16x128, .f32⟩
  | .hbm, ⟨13, _⟩ => ⟨S8192x16x1, .f32⟩
  | .hbm, ⟨14, _⟩ => ⟨S8192x16x128, .f32⟩
  | .hbm, ⟨15, _⟩ => ⟨S8192x16x128, .f32⟩
  | .hbm, ⟨16, _⟩ => ⟨S8192x2048, .f32⟩
  | .hbm, ⟨17, _⟩ => ⟨S2048x8192, .f32⟩
  | .hbm, ⟨18, _⟩ => ⟨S512x8192, .f32⟩
  | .hbm, ⟨19, _⟩ => ⟨S1x8192, .f32⟩
  | .hbm, ⟨20, _⟩ => ⟨S512x8192, .f32⟩
  | .hbm, ⟨21, _⟩ => ⟨S512x8192, .f32⟩
  | .hbm, ⟨22, _⟩ => ⟨S_, .f32⟩
  | .hbm, ⟨23, _⟩ => ⟨S512x8192, .f32⟩
  | .hbm, ⟨24, _⟩ => ⟨S512x8192, .f32⟩
  | .hbm, ⟨25, _⟩ => ⟨S2048x64x128, .f32⟩
  | .hbm, ⟨26, _⟩ => ⟨S2048x64x1, .f32⟩
  | .hbm, ⟨27, _⟩ => ⟨S2048x64x128, .f32⟩
  | .hbm, ⟨28, _⟩ => ⟨S2048x64x128, .f32⟩
  | .hbm, ⟨29, _⟩ => ⟨S2048x64x1, .f32⟩
  | .hbm, ⟨30, _⟩ => ⟨S2048x64x128, .f32⟩
  | .hbm, ⟨31, _⟩ => ⟨S2048x64x128, .f32⟩
  | .hbm, ⟨32, _⟩ => ⟨S2048x8192, .f32⟩
  | .hbm, ⟨33, _⟩ => ⟨S8192x2048, .f32⟩
  | .hbm, ⟨34, _⟩ => ⟨S512x2048, .f32⟩
  | .hbm, ⟨35, _⟩ => ⟨S1x2048, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S8192x16_S8192x16x1_0_1 : S8192x16.BroadcastsInDim S8192x16x1 (![0, 1] : Fin 2 → Fin S8192x16x1.rank)
  bcast_S8192x16x1_S8192x16x128_0_1_2 : S8192x16x1.BroadcastsInDim S8192x16x128 (![0, 1, 2] : Fin 3 → Fin S8192x16x128.rank)
  shapeCasts_S8192x16x128_S8192x2048 : S8192x16x128.ShapeCasts S8192x2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  bcast_S_S512x8192 : S_.BroadcastsInDim S512x8192 (![] : Fin 0 → Fin S512x8192.rank)
  bcast_S2048x64_S2048x64x1_0_1 : S2048x64.BroadcastsInDim S2048x64x1 (![0, 1] : Fin 2 → Fin S2048x64x1.rank)
  bcast_S2048x64x1_S2048x64x128_0_1_2 : S2048x64x1.BroadcastsInDim S2048x64x128 (![0, 1, 2] : Fin 3 → Fin S2048x64x128.rank)
  shapeCasts_S2048x64x128_S2048x8192 : S2048x64x128.ShapeCasts S2048x8192
  transposes_S2048x8192_S8192x2048_1_0 : S2048x8192.Transposes [1, 0] S8192x2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  dot_S512x2048_S2048x8192_S512x8192_1_0_0_1_n_n_wf : DotDims.WF S512x2048 S2048x8192 S512x8192 [1] [0] [0] [1] [] []
  dot_S512x8192_S8192x2048_S512x2048_1_0_0_1_n_n_wf : DotDims.WF S512x8192 S8192x2048 S512x2048 [1] [0] [0] [1] [] []

variable [Facts₀]

def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S512x8192_S8192x2048_S512x2048_1_0_0_1_n_n : DotDims S512x8192 S8192x2048 S512x2048 where
  lhsContracting := [1]
  rhsContracting := [0]
  lhsNonContracting := [0]
  rhsNonContracting := [1]
  lhsBatch := []
  rhsBatch := []
  wf := dot_S512x8192_S8192x2048_S512x2048_1_0_0_1_n_n_wf

class Facts : Prop extends Facts₀ where

variable [Facts]
-- ==== Proof.KernelRun.lean ====
/-
  The idealized kernel's run with its result named.

  @main is two host stretches and two pipelined kernel launches.  Every weakly fair execution terminates without a
  fault, leaves the nine argument arrays as launched, and leaves the result array at what the second launch's
  write-backs fold to: the last boundary contents of the run, read at the result buffer.  The argument is the one
  the frame certificate gives (the launch over the four segments, the final thread state read against the final
  memory); the only addition is that the final state is also read at the result buffer.
-/
import proofs.«157148_j22162031247829_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary
    contents and the arguments as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Spec.lean ====
/-
  Two linear layers whose weights are stored as 4-bit codes, quantised in groups of 128 along the input axis.

  A layer with `K = 128·G` input features and `N` output features keeps, for output feature `n` and group `g`,
  a scale `s n g` and a zero point `z n g`, and for every position `j` of the group a code `q n g j`; the weight
  it stands for is `(q n g j − z n g) · s n g`.  The layer maps `x` to `x · Wᵀ + bias`; the first layer is followed
  by `max · 0`, the second is not.  Everything here is over the extended reals, with the codes read as integers.

  Two spellings of a weight entry occur: `(q − z)·s` and `q·s − z·s`.  They agree whenever `s` and `z` are real
  numbers (distributivity, which fails at the infinities); the laws are proved in a module of their own.
-/
import Idealize.ShloMosaic.PureOps.Ideal
import Idealize.ShloMosaic.Lib.ValueIdx

noncomputable section

namespace Cert.QLinear

open Idealize.ShloMosaic Idealize.ShloMosaic.ValueIdx

variable {B N G K : ℕ}

/-- A code read as an integer, as an extended real. -/
abbrev code (w : BitVec 32) : EReal := ((w.toInt : ℝ) : EReal)

/-- The weight entry of output feature `n`, group `g`, position `j`: `(q − z)·s`. -/
def wgt (q : IVec ⟨3, ![N, G, 128]⟩ 32) (s z : FVec Ideal ⟨2, ![N, G]⟩ .f32) (n : Fin N) (g : Fin G) (j : Fin 128) : EReal :=
  (code (q (ix3 n g j)) - z (ix2 n g)) * s (ix2 n g)

/-- The same entry with the product distributed: `q·s − z·s`. -/
def wgtK (q : IVec ⟨3, ![N, G, 128]⟩ 32) (s z : FVec Ideal ⟨2, ![N, G]⟩ .f32) (n : Fin N) (g : Fin G) (j : Fin 128) : EReal :=
  code (q (ix3 n g j)) * s (ix2 n g) - z (ix2 n g) * s (ix2 n g)

/-- The group of a flat input-feature index. -/
abbrev grpOf (hK : K = G * 128) (k : Fin K) : Fin G := ⟨k.val / 128, by have := k.isLt; omega⟩
/-- Its position inside the group. -/
abbrev posOf (k : Fin K) : Fin 128 := ⟨k.val % 128, Nat.mod_lt _ (by norm_num)⟩

/-- One linear layer at batch row `b` and output feature `n`, over a weight given entry by entry:
    the sum over the flat input index `k = 128·g + j` of `x b k · w n g j`, plus the bias. -/
def lin (hK : K = G * 128) (x : FVec Ideal ⟨2, ![B, K]⟩ .f32) (w : Fin N → Fin G → Fin 128 → EReal)
    (bias : FVec Ideal ⟨1, ![N]⟩ .f32) (b : Fin B) (n : Fin N) : EReal :=
  (∑ k : Fin K, x (ix2 b k) * w n (grpOf hK k) (posOf k)) + bias (ix1 n)

/-- The same layer over FLAT operands: the codes as an `N × K` matrix, the per-group products `z·s` given as a
    table `zs`, the bias as a `1 × N` row; the weight entry is formed as `q·s − zs`. -/
def linFlat (hK : K = G * 128) (x : FVec Ideal ⟨2, ![B, K]⟩ .f32) (qf : IVec ⟨2, ![N, K]⟩ 32)
    (s zs : FVec Ideal ⟨2, ![N, G]⟩ .f32) (brow : FVec Ideal ⟨2, ![1, N]⟩ .f32) (b : Fin B) (n : Fin N) : EReal :=
  (∑ k : Fin K, x (ix2 b k) * (code (qf (ix2 n k)) * s (ix2 n (grpOf hK k)) - zs (ix2 n (grpOf hK k)))) + brow (ix2 (0 : Fin 1) n)

/-- The hidden activation: the first layer (2048 inputs in 16 groups, 8192 outputs) followed by `max · 0`. -/
def hidden (w : Fin 8192 → Fin 16 → Fin 128 → EReal) (x : FVec Ideal ⟨2, ![512, 2048]⟩ .f32)
    (b1 : FVec Ideal ⟨1, ![8192]⟩ .f32) : FVec Ideal ⟨2, ![512, 8192]⟩ .f32 :=
  fun i => max (lin (G := 16) rfl x w b1 (i 0) (i 1)) 0

/-- The output: the second layer (8192 inputs in 64 groups, 2048 outputs) of the hidden activation. -/
def output (w : Fin 2048 → Fin 64 → Fin 128 → EReal) (h : FVec Ideal ⟨2, ![512, 8192]⟩ .f32)
    (b2 : FVec Ideal ⟨1, ![2048]⟩ .f32) : FVec Ideal ⟨2, ![512, 2048]⟩ .f32 :=
  fun i => lin (G := 64) rfl h w b2 (i 0) (i 1)

/-- The whole map with weights `(q − z)·s`. -/
def mlp (x : FVec Ideal ⟨2, ![512, 2048]⟩ .f32)
    (q1 : IVec ⟨3, ![8192, 16, 128]⟩ 32) (s1 z1 : FVec Ideal ⟨2, ![8192, 16]⟩ .f32) (b1 : FVec Ideal ⟨1, ![8192]⟩ .f32)
    (q2 : IVec ⟨3, ![2048, 64, 128]⟩ 32) (s2 z2 : FVec Ideal ⟨2, ![2048, 64]⟩ .f32) (b2 : FVec Ideal ⟨1, ![2048]⟩ .f32) :
    FVec Ideal ⟨2, ![512, 2048]⟩ .f32 :=
  output (wgt q2 s2 z2) (hidden (wgt q1 s1 z1) x b1) b2

/-- The whole map with weights `q·s − z·s`. -/
def mlpK (x : FVec Ideal ⟨2, ![512, 2048]⟩ .f32)
    (q1 : IVec ⟨3, ![8192, 16, 128]⟩ 32) (s1 z1 : FVec Ideal ⟨2, ![8192, 16]⟩ .f32) (b1 : FVec Ideal ⟨1, ![8192]⟩ .f32)
    (q2 : IVec ⟨3, ![2048, 64, 128]⟩ 32) (s2 z2 : FVec Ideal ⟨2, ![2048, 64]⟩ .f32) (b2 : FVec Ideal ⟨1, ![2048]⟩ .f32) :
    FVec Ideal ⟨2, ![512, 2048]⟩ .f32 :=
  output (wgtK q2 s2 z2) (hidden (wgtK q1 s1 z1) x b1) b2

end Cert.QLinear

end
-- ==== Proof.SpecLaws.lean ====
/-
  Laws of the quantised linear layer.

  * A weight entry `q·s − z·s` equals `(q − z)·s` when the scale `s` and the zero point `z` are real numbers:
    over the reals this is distributivity; it is stated through the coercion of the reals into the extended reals.
  * Hence the two spellings of the whole two-layer map agree under the same hypothesis.
  * The layer over flat operands (codes as an `N × K` matrix, the products `z·s` as a table, the bias as a row)
    is the layer over the grouped operands when the flat operands are the evident re-layouts.
  * A sum over `C·512` consecutive indices can be taken 512 at a time.
-/
import proofs.«157148_j22162031247829_2_alg».proof.Proof.Spec

noncomputable section

namespace Cert.QLinear

open Idealize.ShloMosaic Idealize.ShloMosaic.ValueIdx

variable {B N G K : ℕ}

/-- q·s − z·s = (q − z)·s when s and z are real numbers. -/
theorem wgtK_eq_wgt (q : IVec ⟨3, ![N, G, 128]⟩ 32) (s z : FVec Ideal ⟨2, ![N, G]⟩ .f32)
    (hs : ∀ i, ∃ r : ℝ, s i = (r : EReal)) (hz : ∀ i, ∃ r : ℝ, z i = (r : EReal)) : wgtK q s z = wgt q s z := by
  funext n g j
  obtain ⟨r, hr⟩ := hs (ix2 n g)
  obtain ⟨t, ht⟩ := hz (ix2 n g)
  unfold wgt wgtK code
  rw [hr, ht]
  rw [← EReal.coe_mul, ← EReal.coe_mul, ← EReal.coe_sub, ← EReal.coe_sub, ← EReal.coe_mul]
  congr 1
  ring

theorem mlpK_eq_mlp (x : FVec Ideal ⟨2, ![512, 2048]⟩ .f32)
    (q1 : IVec ⟨3, ![8192, 16, 128]⟩ 32) (s1 z1 : FVec Ideal ⟨2, ![8192, 16]⟩ .f32) (b1 : FVec Ideal ⟨1, ![8192]⟩ .f32)
    (q2 : IVec ⟨3, ![2048, 64, 128]⟩ 32) (s2 z2 : FVec Ideal ⟨2, ![2048, 64]⟩ .f32) (b2 : FVec Ideal ⟨1, ![2048]⟩ .f32)
    (hs1 : ∀ i, ∃ r : ℝ, s1 i = (r : EReal)) (hz1 : ∀ i, ∃ r : ℝ, z1 i = (r : EReal))
    (hs2 : ∀ i, ∃ r : ℝ, s2 i = (r : EReal)) (hz2 : ∀ i, ∃ r : ℝ, z2 i = (r : EReal)) :
    mlpK x q1 s1 z1 b1 q2 s2 z2 b2 = mlp x q1 s1 z1 b1 q2 s2 z2 b2 := by
  unfold mlpK mlp
  rw [wgtK_eq_wgt q1 s1 z1 hs1 hz1, wgtK_eq_wgt q2 s2 z2 hs2 hz2]

/-- The layer over flat operands is the layer over the grouped ones when the flat operands are the evident re-layouts. -/
theorem linFlat_eq_lin (hK : K = G * 128) (x : FVec Ideal ⟨2, ![B, K]⟩ .f32) (qf : IVec ⟨2, ![N, K]⟩ 32)
    (s zs : FVec Ideal ⟨2, ![N, G]⟩ .f32) (brow : FVec Ideal ⟨2, ![1, N]⟩ .f32)
    (q : IVec ⟨3, ![N, G, 128]⟩ 32) (z : FVec Ideal ⟨2, ![N, G]⟩ .f32) (bias : FVec Ideal ⟨1, ![N]⟩ .f32)
    (hq : ∀ (n : Fin N) (k : Fin K), qf (ix2 n k) = q (ix3 n (grpOf hK k) (posOf k)))
    (hzs : ∀ (n : Fin N) (g : Fin G), zs (ix2 n g) = z (ix2 n g) * s (ix2 n g))
    (hb : ∀ n : Fin N, brow (ix2 (0 : Fin 1) n) = bias (ix1 n)) (b : Fin B) (n : Fin N) :
    linFlat hK x qf s zs brow b n = lin hK x (wgtK q s z) bias b n := by
  unfold linFlat lin
  rw [hb n]
  congr 1
  refine Finset.sum_congr rfl fun k _ => ?_
  rw [hq n k, hzs n (grpOf hK k)]
  rfl

/-- A sum over C·512 consecutive indices, taken 512 at a time. -/
theorem sum_chunks (C : ℕ) (f : ℕ → EReal) :
    ∑ k : Fin (C * 512), f k.val = ∑ c ∈ Finset.range C, ∑ k : Fin 512, f (512 * c + k.val) := by
  -- Both sides are sums over initial segments of the naturals; peel off the last block of 512 and recurse.
  rw [Fin.sum_univ_eq_sum_range (fun k => f k) (C * 512)]
  induction C with
  | zero => simp
  | succ C ih =>
    rw [Finset.sum_range_succ, ← ih, Nat.succ_mul, Finset.sum_range_add,
      Fin.sum_univ_eq_sum_range (fun k => f (512 * C + k)) 512, Nat.mul_comm 512 C]

end Cert.QLinear

end
-- ==== Proof.SpecSum.lean ====
/-
  The flat linear layer as a sum of terms indexed by natural numbers, and that sum taken in chunks.

  `term … kk` is the summand of the flat layer at input position `kk`, extended by zero past the last position, so
  that positions can be written `offset + k`.  The layer is the sum of its terms plus the bias; for 2048 and for
  8192 positions the sum is rewritten as the left-nested accumulation, from zero, of consecutive blocks of 512
  terms.  Finally, a layer restricted to a block of output rows is the full layer at the corresponding row.
-/
import proofs.«157148_j22162031247829_2_alg».proof.Proof.Spec
import proofs.«157148_j22162031247829_2_alg».proof.Proof.SpecLaws

noncomputable section

namespace Cert.QLinear

open Idealize.ShloMosaic Idealize.ShloMosaic.ValueIdx

variable {B N G K : ℕ}

/-- The summand of `linFlat` at a flat input position given as a natural number; zero past the last position. -/
def term (hK : K = G * 128) (x : FVec Ideal ⟨2, ![B, K]⟩ .f32) (qf : IVec ⟨2, ![N, K]⟩ 32) (s zs : FVec Ideal ⟨2, ![N, G]⟩ .f32)
    (b : Fin B) (n : Fin N) (kk : ℕ) : EReal :=
  if h : kk < K then x (ix2 b ⟨kk, h⟩) * (code (qf (ix2 n ⟨kk, h⟩)) * s (ix2 n (grpOf hK ⟨kk, h⟩)) - zs (ix2 n (grpOf hK ⟨kk, h⟩))) else 0

theorem term_of_lt (hK : K = G * 128) (x : FVec Ideal ⟨2, ![B, K]⟩ .f32) (qf : IVec ⟨2, ![N, K]⟩ 32) (s zs : FVec Ideal ⟨2, ![N, G]⟩ .f32)
    (b : Fin B) (n : Fin N) (kk : ℕ) (h : kk < K) :
    term hK x qf s zs b n kk = x (ix2 b ⟨kk, h⟩) * (code (qf (ix2 n ⟨kk, h⟩)) * s (ix2 n (grpOf hK ⟨kk, h⟩)) - zs (ix2 n (grpOf hK ⟨kk, h⟩))) := by
  unfold term
  rw [dif_pos h]

theorem linFlat_eq_sum_term (hK : K = G * 128) (x : FVec Ideal ⟨2, ![B, K]⟩ .f32) (qf : IVec ⟨2, ![N, K]⟩ 32) (s zs : FVec Ideal ⟨2, ![N, G]⟩ .f32)
    (brow : FVec Ideal ⟨2, ![1, N]⟩ .f32) (b : Fin B) (n : Fin N) :
    linFlat hK x qf s zs brow b n = (∑ k : Fin K, term hK x qf s zs b n k.val) + brow (ix2 (0 : Fin 1) n) := by
  unfold linFlat
  congr 1
  refine Finset.sum_congr rfl fun k _ => ?_
  rw [term_of_lt hK x qf s zs b n k.val k.isLt]

/-- 2048 positions taken 512 at a time, in order, from zero: the order in which a four-chunk accumulation adds them. -/
theorem linFlat_chain4 (x : FVec Ideal ⟨2, ![B, 2048]⟩ .f32) (qf : IVec ⟨2, ![N, 2048]⟩ 32) (s zs : FVec Ideal ⟨2, ![N, 16]⟩ .f32)
    (brow : FVec Ideal ⟨2, ![1, N]⟩ .f32) (b : Fin B) (n : Fin N) :
    linFlat (G := 16) rfl x qf s zs brow b n
      = ((((0 + ∑ k : Fin 512, term (G := 16) rfl x qf s zs b n (0 + k.val)) + ∑ k : Fin 512, term (G := 16) rfl x qf s zs b n (512 + k.val)) + ∑ k : Fin 512, term (G := 16) rfl x qf s zs b n (1024 + k.val)) + ∑ k : Fin 512, term (G := 16) rfl x qf s zs b n (1536 + k.val))
        + brow (ix2 (0 : Fin 1) n) := by
  have h : ∑ k : Fin 2048, term (G := 16) rfl x qf s zs b n k.val
      = ∑ c ∈ Finset.range 4, ∑ k : Fin 512, term (G := 16) rfl x qf s zs b n (512 * c + k.val) :=
    sum_chunks 4 (fun kk => term (G := 16) rfl x qf s zs b n kk)
  rw [linFlat_eq_sum_term, h]
  simp only [Finset.sum_range_succ, Finset.sum_range_zero, Nat.mul_zero, Nat.mul_one, Nat.reduceMul]

/-- 8192 positions, sixteen chunks of 512, in order, from zero. -/
theorem linFlat_chain16 (x : FVec Ideal ⟨2, ![B, 8192]⟩ .f32) (qf : IVec ⟨2, ![N, 8192]⟩ 32) (s zs : FVec Ideal ⟨2, ![N, 64]⟩ .f32)
    (brow : FVec Ideal ⟨2, ![1, N]⟩ .f32) (b : Fin B) (n : Fin N) :
    linFlat (G := 64) rfl x qf s zs brow b n
      = ((((((((((((((((0 + ∑ k : Fin 512, term (G := 64) rfl x qf s zs b n (0 + k.val)) + ∑ k : Fin 512, term (G := 64) rfl x qf s zs b n (512 + k.val)) + ∑ k : Fin 512, term (G := 64) rfl x qf s zs b n (1024 + k.val)) + ∑ k : Fin 512, term (G := 64) rfl x qf s zs b n (1536 + k.val)) + ∑ k : Fin 512, term (G := 64) rfl x qf s zs b n (2048 + k.val)) + ∑ k : Fin 512, term (G := 64) rfl x qf s zs b n (2560 + k.val)) + ∑ k : Fin 512, term (G := 64) rfl x qf s zs b n (3072 + k.val)) + ∑ k : Fin 512, term (G := 64) rfl x qf s zs b n (3584 + k.val)) + ∑ k : Fin 512, term (G := 64) rfl x qf s zs b n (4096 + k.val)) + ∑ k : Fin 512, term (G := 64) rfl x qf s zs b n (4608 + k.val)) + ∑ k : Fin 512, term (G := 64) rfl x qf s zs b n (5120 + k.val)) + ∑ k : Fin 512, term (G := 64) rfl x qf s zs b n (5632 + k.val)) + ∑ k : Fin 512, term (G := 64) rfl x qf s zs b n (6144 + k.val)) + ∑ k : Fin 512, term (G := 64) rfl x qf s zs b n (6656 + k.val)) + ∑ k : Fin 512, term (G := 64) rfl x qf s zs b n (7168 + k.val)) + ∑ k : Fin 512, term (G := 64) rfl x qf s zs b n (7680 + k.val))
        + brow (ix2 (0 : Fin 1) n) := by
  have h : ∑ k : Fin 8192, term (G := 64) rfl x qf s zs b n k.val
      = ∑ c ∈ Finset.range 16, ∑ k : Fin 512, term (G := 64) rfl x qf s zs b n (512 * c + k.val) :=
    sum_chunks 16 (fun kk => term (G := 64) rfl x qf s zs b n kk)
  rw [linFlat_eq_sum_term, h]
  simp only [Finset.sum_range_succ, Finset.sum_range_zero, Nat.mul_zero, Nat.mul_one, Nat.reduceMul]

/-- Moving a layer to a row block: if the primed operands are the unprimed ones at row offset `o` (the input `x` and
    its batch rows unchanged), the layer at row `n'` of the block is the layer at row `n = o + n'`. -/
theorem linFlat_rows {N' : ℕ} (hK : K = G * 128) (x x' : FVec Ideal ⟨2, ![B, K]⟩ .f32) (qf : IVec ⟨2, ![N, K]⟩ 32) (qf' : IVec ⟨2, ![N', K]⟩ 32)
    (s zs : FVec Ideal ⟨2, ![N, G]⟩ .f32) (s' zs' : FVec Ideal ⟨2, ![N', G]⟩ .f32) (brow : FVec Ideal ⟨2, ![1, N]⟩ .f32) (brow' : FVec Ideal ⟨2, ![1, N']⟩ .f32)
    (o : ℕ) (b : Fin B) (n' : Fin N') (n : Fin N) (hn : n.val = o + n'.val)
    (hx : ∀ k, x' (ix2 b k) = x (ix2 b k)) (hq : ∀ k, qf' (ix2 n' k) = qf (ix2 n k)) (hs : ∀ g, s' (ix2 n' g) = s (ix2 n g))
    (hzs : ∀ g, zs' (ix2 n' g) = zs (ix2 n g)) (hb : brow' (ix2 (0 : Fin 1) n') = brow (ix2 (0 : Fin 1) n)) :
    linFlat hK x' qf' s' zs' brow' b n' = linFlat hK x qf s zs brow b n := by
  unfold linFlat
  rw [hb]
  congr 1
  refine Finset.sum_congr rfl fun k _ => ?_
  rw [hx, hq, hs, hzs]

end Cert.QLinear

end
-- ==== Proof.BlkLemmas.lean ====
/-
  Index-level readings of the block operations.

  Each lemma reads one array operation at a single entry, with the entry given by its two coordinates.
  * A block product `x · wᵀ` (both operands contract their second axis) into a zero accumulator, at entry
    `(b, n)`, is the sum over the contracted position `k` of `x (b, k) · w (n, k)`.
  * Four panels of 128 columns laid side by side form 512 columns; column `k` lies in panel `k / 128` at
    column `k % 128` of that panel.
  * A slice of 128 columns starting at column `off` reads the source at column `off + j`.
  * A single column broadcast along the second axis reads the column at the same row.
  * A rectangular window with unit strides starting at row 0 and column `o` reads the array at `(a, o + j)`.
-/
import proofs.«157148_j22162031247829_2_alg».proof.KernelIdeal
import proofs.«157148_j22162031247829_2_alg».proof.Proof.Gen.KernelIdeal
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Blk

open Cert.KernelIdeal Idealize.ShloMosaic Idealize.ShloMosaic.ValueIdx

/-- The left operand's free axis reads the output entry's row. -/
theorem mm0_lhs_free (i : S512x1024.Idx) (q : dot_S512x512_S1024x512_S512x1024_1_1_0_0_n_n.contr.Idx) : (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
/-- The right operand's free axis reads the output entry's column. -/
theorem mm0_rhs_free (i : S512x1024.Idx) (q : dot_S512x512_S1024x512_S512x1024_1_1_0_0_n_n.contr.Idx) : (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl

/-- A block product with the right operand transposed, into a zero accumulator, at an output entry: the sum over
    the 512 contracted positions. -/
theorem mm0_apply (xc : FVec Ideal S512x512 .bf16) (wc : FVec Ideal S1024x512 .bf16) (b : Fin 512) (n : Fin 1024) :
    matmul dot_S512x512_S1024x512_S512x1024_1_1_0_0_n_n none xc wc (constant (F := Ideal) S512x1024 .f32 0x00000000#32) (ix2 b n)
      = ∑ k : Fin 512, xc (ix2 b k) * wc (ix2 n k) := by
  show FloatOps.matmul dot_S512x512_S1024x512_S512x1024_1_1_0_0_n_n none xc wc (constant (F := Ideal) S512x1024 .f32 0x00000000#32) (ix2 b n) = _
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 b n) ((contrEquiv1 dot_S512x512_S1024x512_S512x1024_1_1_0_0_n_n 512 rfl rfl).symm k) = ix2 b k :=
    funext fun a => Fin.ext (by
      match a with
      | ⟨0, _⟩ => exact mm0_lhs_free _ _
      | ⟨1, _⟩ => exact (dot_S512x512_S1024x512_S512x1024_1_1_0_0_n_n.lhsIdx_val_of_single rfl _ _).trans hk)
  have er : dot_S512x512_S1024x512_S512x1024_1_1_0_0_n_n.rhsIdx (ix2 b n) ((contrEquiv1 dot_S512x512_S1024x512_S512x1024_1_1_0_0_n_n 512 rfl rfl).symm k) = ix2 n k :=
    funext fun a => Fin.ext (by
      match a with
      | ⟨0, _⟩ => exact mm0_rhs_free _ _
      | ⟨1, _⟩ => exact (dot_S512x512_S1024x512_S512x1024_1_1_0_0_n_n.rhsIdx_val_of_single rfl _ _).trans hk)
  rw [el, er]

/-- The left operand's free axis reads the output entry's row. -/
theorem mm1_lhs_free (i : S512x256.Idx) (q : dot_S512x512_S256x512_S512x256_1_1_0_0_n_n.contr.Idx) : (dot_S512x512_S256x512_S512x256_1_1_0_0_n_n.lhsIdx i q 0).val = (i 0).val := by
  unfold DotDims.lhsIdx
  rw [dif_neg (show ¬(0 : Fin S512x512.rank) ∈ dot_S512x512_S256x512_S512x256_1_1_0_0_n_n.lhsBatch by decide),
    dif_pos (show (0 : Fin S512x512.rank) ∈ dot_S512x512_S256x512_S512x256_1_1_0_0_n_n.lhsNonContracting by decide)]
  rfl
/-- The right operand's free axis reads the output entry's column. -/
theorem mm1_rhs_free (i : S512x256.Idx) (q : dot_S512x512_S256x512_S512x256_1_1_0_0_n_n.contr.Idx) : (dot_S512x512_S256x512_S512x256_1_1_0_0_n_n.rhsIdx i q 0).val = (i 1).val := by
  unfold DotDims.rhsIdx
  rw [dif_neg (show ¬(0 : Fin S256x512.rank) ∈ dot_S512x512_S256x512_S512x256_1_1_0_0_n_n.rhsBatch by decide),
    dif_pos (show (0 : Fin S256x512.rank) ∈ dot_S512x512_S256x512_S512x256_1_1_0_0_n_n.rhsNonContracting by decide)]
  rfl

/-- A block product with the right operand transposed, into a zero accumulator, at an output entry: the sum over
    the 512 contracted positions. -/
theorem mm1_apply (xc : FVec Ideal S512x512 .bf16) (wc : FVec Ideal S256x512 .bf16) (b : Fin 512) (n : Fin 256) :
    matmul dot_S512x512_S256x512_S512x256_1_1_0_0_n_n none xc wc (constant (F := Ideal) S512x256 .f32 0x00000000#32) (ix2 b n)
      = ∑ k : Fin 512, xc (ix2 b k) * wc (ix2 n k) := by
  show FloatOps.matmul dot_S512x512_S256x512_S512x256_1_1_0_0_n_n none xc wc (constant (F := Ideal) S512x256 .f32 0x00000000#32) (ix2 b n) = _
  rw [Ideal.matmul_constant_zero_apply, ← Equiv.sum_comp (contrEquiv1 dot_S512x512_S256x512_S512x256_1_1_0_0_n_n 512 rfl rfl).symm]
  refine Finset.sum_congr rfl fun k _ => ?_
  have hk := contrEquiv1_symm_val dot_S512x512_S256x512_S512x256_1_1_0_0_n_n 512 rfl rfl k
  have el : dot_S512x512_S256x512_S512x256_1_1_0_0_n_n.lhsIdx (ix2 b n) ((contrEquiv1 dot_S512x512_S256x512_S512x256_1_1_0_0_n_n 512 rfl rfl).symm k) = ix2 b k :=
    funext fun a => Fin.ext (by
      match a with
      | ⟨0, _⟩ => exact mm1_lhs_free _ _
      | ⟨1, _⟩ => exact (dot_S512x512_S256x512_S512x256_1_1_0_0_n_n.lhsIdx_val_of_single rfl _ _).trans hk)
  have er : dot_S512x512_S256x512_S512x256_1_1_0_0_n_n.rhsIdx (ix2 b n) ((contrEquiv1 dot_S512x512_S256x512_S512x256_1_1_0_0_n_n 512 rfl rfl).symm k) = ix2 n k :=
    funext fun a => Fin.ext (by
      match a with
      | ⟨0, _⟩ => exact mm1_rhs_free _ _
      | ⟨1, _⟩ => exact (dot_S512x512_S256x512_S512x256_1_1_0_0_n_n.rhsIdx_val_of_single rfl _ _).trans hk)
  rw [el, er]

/-- Four column panels of width 128 laid side by side, read at column `k` of panel number `g = k / 128`. -/
theorem conc4_apply_aux {R : ℕ} {α : Type} (p0 p1 p2 p3 : (⟨2, ![R, 128]⟩ : Shape).Idx → α)
    (h : Shape.Concatenates [(⟨2, ![R, 128]⟩ : Shape), ⟨2, ![R, 128]⟩, ⟨2, ![R, 128]⟩, ⟨2, ![R, 128]⟩] ⟨2, ![R, 512]⟩ 1)
    (n : Fin R) (k : Fin 512) (g : Fin 4) (hg : k.val / 128 = g.val) :
    concatenate (⟨2, ![R, 512]⟩ : Shape) 1 [⟨⟨2, ![R, 128]⟩, p0⟩, ⟨⟨2, ![R, 128]⟩, p1⟩, ⟨⟨2, ![R, 128]⟩, p2⟩, ⟨⟨2, ![R, 128]⟩, p3⟩] h (ix2 n k)
      = (![p0, p1, p2, p3] g) (ix2 n ⟨k.val % 128, Nat.mod_lt _ (by norm_num)⟩) := by
  have hi : ∀ b : Fin (⟨2, ![R, 128]⟩ : Shape).rank, b.cast (rfl : (⟨2, ![R, 128]⟩ : Shape).rank = (⟨2, ![R, 512]⟩ : Shape).rank) ≠ (1 : Fin 2) →
      ((ix2 n (⟨k.val % 128, Nat.mod_lt _ (by norm_num)⟩ : Fin 128) : (⟨2, ![R, 128]⟩ : Shape).Idx) b).val
        = ((ix2 n k : (⟨2, ![R, 512]⟩ : Shape).Idx) (b.cast rfl)).val := fun b hb => by
    match b with
    | ⟨0, _⟩ => rfl
    | ⟨1, _⟩ => exact absurd rfl hb
  match g, hg with
  | ⟨0, _⟩, hg =>
    exact concatenate_apply_piece (t := ⟨2, ![R, 512]⟩) 1 [⟨⟨2, ![R, 128]⟩, p0⟩, ⟨⟨2, ![R, 128]⟩, p1⟩, ⟨⟨2, ![R, 128]⟩, p2⟩, ⟨⟨2, ![R, 128]⟩, p3⟩] h (ix2 n k) 0 (by simp) ⟨2, ![R, 128]⟩ p0 rfl rfl 0 (by simp)
      (ix2 n ⟨k.val % 128, Nat.mod_lt _ (by norm_num)⟩) hi
      (by show 0 + k.val % 128 = k.val; have : k.val / 128 = 0 := hg; omega)
  | ⟨1, _⟩, hg =>
    exact concatenate_apply_piece (t := ⟨2, ![R, 512]⟩) 1 [⟨⟨2, ![R, 128]⟩, p0⟩, ⟨⟨2, ![R, 128]⟩, p1⟩, ⟨⟨2, ![R, 128]⟩, p2⟩, ⟨⟨2, ![R, 128]⟩, p3⟩] h (ix2 n k) 1 (by simp) ⟨2, ![R, 128]⟩ p1 rfl rfl 128 (by simp)
      (ix2 n ⟨k.val % 128, Nat.mod_lt _ (by norm_num)⟩) hi
      (by show 128 + k.val % 128 = k.val; have : k.val / 128 = 1 := hg; omega)
  | ⟨2, _⟩, hg =>
    exact concatenate_apply_piece (t := ⟨2, ![R, 512]⟩) 1 [⟨⟨2, ![R, 128]⟩, p0⟩, ⟨⟨2, ![R, 128]⟩, p1⟩, ⟨⟨2, ![R, 128]⟩, p2⟩, ⟨⟨2, ![R, 128]⟩, p3⟩] h (ix2 n k) 2 (by simp) ⟨2, ![R, 128]⟩ p2 rfl rfl 256 (by simp)
      (ix2 n ⟨k.val % 128, Nat.mod_lt _ (by norm_num)⟩) hi
      (by show 256 + k.val % 128 = k.val; have : k.val / 128 = 2 := hg; omega)
  | ⟨3, _⟩, hg =>
    exact concatenate_apply_piece (t := ⟨2, ![R, 512]⟩) 1 [⟨⟨2, ![R, 128]⟩, p0⟩, ⟨⟨2, ![R, 128]⟩, p1⟩, ⟨⟨2, ![R, 128]⟩, p2⟩, ⟨⟨2, ![R, 128]⟩, p3⟩] h (ix2 n k) 3 (by simp) ⟨2, ![R, 128]⟩ p3 rfl rfl 384 (by simp)
      (ix2 n ⟨k.val % 128, Nat.mod_lt _ (by norm_num)⟩) hi
      (by show 384 + k.val % 128 = k.val; have : k.val / 128 = 3 := hg; omega)

/-- Four column panels of width 128 laid side by side, read at column `k`: panel `k / 128` at column `k % 128`. -/
theorem conc4_apply {R : ℕ} {α : Type} (p0 p1 p2 p3 : (⟨2, ![R, 128]⟩ : Shape).Idx → α)
    (h : Shape.Concatenates [(⟨2, ![R, 128]⟩ : Shape), ⟨2, ![R, 128]⟩, ⟨2, ![R, 128]⟩, ⟨2, ![R, 128]⟩] ⟨2, ![R, 512]⟩ 1)
    (n : Fin R) (k : Fin 512) :
    concatenate (⟨2, ![R, 512]⟩ : Shape) 1 [⟨⟨2, ![R, 128]⟩, p0⟩, ⟨⟨2, ![R, 128]⟩, p1⟩, ⟨⟨2, ![R, 128]⟩, p2⟩, ⟨⟨2, ![R, 128]⟩, p3⟩] h (ix2 n k)
      = (![p0, p1, p2, p3] ⟨k.val / 128, by have := k.isLt; omega⟩) (ix2 n ⟨k.val % 128, Nat.mod_lt _ (by norm_num)⟩) :=
  conc4_apply_aux p0 p1 p2 p3 h n k ⟨k.val / 128, by have := k.isLt; omega⟩ rfl

/-- A 128-column slice starting at column `off`, read at `(n, j)`: the source at `(n, off + j)`. -/
theorem slice_cols_apply {R : ℕ} {α : Type} (q : (⟨2, ![R, 512]⟩ : Shape).Idx → α) (off : ℕ)
    (h : (⟨2, ![R, 512]⟩ : Shape).Slices ![0, off] ⟨2, ![R, 128]⟩) (hoff : off + 128 ≤ 512) (n : Fin R) (j : Fin 128) :
    extractStridedSlice (⟨2, ![R, 128]⟩ : Shape) ![0, off] q h (ix2 n j) = q (ix2 n ⟨off + j.val, by have := j.isLt; omega⟩) := by
  refine extractStridedSlice_apply ![0, off] q h (ix2 n j) (ix2 n ⟨off + j.val, by have := j.isLt; omega⟩) fun a => ?_
  match a with
  | ⟨0, _⟩ => exact (Nat.zero_add _).symm
  | ⟨1, _⟩ => rfl

/-- A single column broadcast along the second axis, read at `(n, j)`: the column at row `n`. -/
theorem bcol_apply {R C : ℕ} {α : Type} (v : (⟨2, ![R, 1]⟩ : Shape).Idx → α) (h : (⟨2, ![R, 1]⟩ : Shape).Broadcasts ⟨2, ![R, C]⟩)
    (n : Fin R) (j : Fin C) :
    broadcastTo (⟨2, ![R, C]⟩ : Shape) v h (ix2 n j) = v (ix2 n (0 : Fin 1)) := by
  refine broadcastTo_apply v h (ix2 n j) (ix2 n (0 : Fin 1)) fun ax => ?_
  match ax with
  | ⟨0, _⟩ =>
    show n.val = if R = 1 then 0 else n.val
    split
    · have := n.isLt; omega
    · rfl
  | ⟨1, _⟩ => rfl

/-- A window of `R'` rows and `C'` columns with unit strides starting at row 0 and column `o`, read at `(a, j)`:
    the array at `(a, o + j)`. -/
theorem ld_cols_apply {R C R' C' : ℕ} {Val : EltTy → Type} {e : EltTy} (X : (⟨2, ![R, C]⟩ : Shape).Idx → Val e) (o : ℕ)
    (inb : ∀ a, (![0, o] : Fin 2 → ℕ) a + (![R', C'] : Fin 2 → ℕ) a ≤ (⟨2, ![R, C]⟩ : Shape).size a) (a : Fin R') (j : Fin C') :
    View.ld X (Rect.unit ![0, o] ![R', C'] inb) (ix2 a j)
      = X (ix2 ⟨a.val, by have h0 : 0 + R' ≤ R := inb 0; have := a.isLt; omega⟩
            ⟨o + j.val, by have h1 : o + C' ≤ C := inb 1; have := j.isLt; omega⟩) := by
  show X _ = X _
  congr 1
  funext ax
  apply Fin.ext
  match ax with
  | ⟨0, _⟩ => show 0 + 1 * a.val = a.val; omega
  | ⟨1, _⟩ => show o + 1 * j.val = o + j.val; omega

end Cert.KernelIdeal.Blk
-- ==== Proof.Chunk0.lean ====
/-
  One chunk of a launch's accumulation, read at an output entry.

  The kernel walks the 2048 input features 512 at a time.  For the chunk that starts at flat position `o = 128·g₀` it
  loads 512 columns of the activation block and of the code tile, forms the dequantised weight tile as four
  128-column panels — panel `p` is `code · scale − (zero·scale)` with the scale and the product taken from column
  `g₀ + p` of the two tables, broadcast along the panel — lays the panels side by side and multiplies the activation
  chunk by the transpose of that tile.  At output entry `(b, n)` this is the sum over the chunk's 512 positions of
  `x b k · (code n k · s n (k/128) − zs n (k/128))`: the summand of the flat layer at the positions `o, …, o + 511`.
  Rounding to the narrower float format and the shape casts between equal shapes are identities on extended reals.
-/
import proofs.«157148_j22162031247829_2_alg».proof.KernelIdeal
import proofs.«157148_j22162031247829_2_alg».proof.Proof.Gen.KernelIdeal
import proofs.«157148_j22162031247829_2_alg».proof.Proof.Spec
import proofs.«157148_j22162031247829_2_alg».proof.Proof.SpecSum
import proofs.«157148_j22162031247829_2_alg».proof.Proof.BlkLemmas

noncomputable section

namespace Cert.KernelIdeal.Chunk0

open Cert.KernelIdeal Cert.KernelIdeal.Blk Cert.QLinear Idealize.ShloMosaic Idealize.ShloMosaic.ValueIdx

/-- One 128-column panel of a chunk's weight tile at row `n`, column `j`: the code at flat position `o + off + j`
    times the panel's scale, minus the panel's `zero·scale` entry. -/
theorem piece_apply (x1 : Vec Ideal S1024x2048 .i32) (x2 x3 : Vec Ideal S1024x16 .f32) (o gg off : ℕ)
    (i1 : ∀ a, (![0, o] : Fin 2 → ℕ) a + (![1024, 512] : Fin 2 → ℕ) a ≤ S1024x2048.size a)
    (i2 : ∀ a, (![0, gg] : Fin 2 → ℕ) a + (![1024, 1] : Fin 2 → ℕ) a ≤ S1024x16.size a)
    (i3 : ∀ a, (![0, gg] : Fin 2 → ℕ) a + (![1024, 1] : Fin 2 → ℕ) a ≤ S1024x16.size a)
    (hq : S1024x512.ShapeCasts S1024x512) (hz : S1024x1.ShapeCasts S1024x1) (hlt : FTy.bits .bf16 < FTy.bits .f32)
    (hs : S1024x512.Slices ![0, off] S1024x128) (hb : S1024x1.Broadcasts S1024x128)
    (hoff : off + 128 ≤ 512) (hoK : o + 512 ≤ 2048) (hg : gg < 16) (n : Fin 1024) (j : Fin 128) :
    subf (mulf (sitofp (F := Ideal) .bf16 (extractStridedSlice S1024x128 ![0, off] (shapeCast S1024x512 (View.ld (Val := Elt Ideal) (e' := .i32) x1 (Rect.unit ![0, o] ![1024, 512] i1)) hq) hs))
          (broadcastTo S1024x128 (truncf (F := Ideal) .bf16 (View.ld (Val := Elt Ideal) (e' := .f32) x2 (Rect.unit ![0, gg] ![1024, 1] i2)) hlt) hb))
        (broadcastTo S1024x128 (truncf (F := Ideal) .bf16 (shapeCast S1024x1 (View.ld (Val := Elt Ideal) (e' := .f32) x3 (Rect.unit ![0, gg] ![1024, 1] i3)) hz) hlt) hb) (ix2 n j)
      = code (x1 (ix2 n ⟨o + (off + j.val), by have := j.isLt; omega⟩)) * x2 (ix2 n ⟨gg, hg⟩) - x3 (ix2 n ⟨gg, hg⟩) := by
  rw [subf_apply, mulf_apply, sitofp_apply, slice_cols_apply _ off hs hoff n j, bcol_apply, bcol_apply, truncf_apply, truncf_apply]
  rw [congrFun (shapeCast_self (s := S1024x512) _ hq) _, congrFun (shapeCast_self (s := S1024x1) _ hz) _]
  rw [ld_cols_apply, ld_cols_apply, ld_cols_apply]
  rfl

/-- Two spellings of one weight entry agree when their positions and groups do. -/
theorem close_piece (x1 : Vec Ideal S1024x2048 .i32) (x2 x3 : Vec Ideal S1024x16 .f32) (n : Fin 1024) (a a' : Fin 2048) (g g' : Fin 16)
    (ha : a = a') (hg : g = g') :
    code (x1 (ix2 n a)) * x2 (ix2 n g) - x3 (ix2 n g) = code (x1 (ix2 n a')) * x2 (ix2 n g') - x3 (ix2 n g') := by
  subst ha hg; rfl

/-- The chunk at flat position `o = 128·g₀`, read at output entry `(b, n)`. -/
theorem chunk_apply (x0 : Vec Ideal S512x2048 .bf16) (x1 : Vec Ideal S1024x2048 .i32) (x2 x3 : Vec Ideal S1024x16 .f32) (o g0 : ℕ)
    (ho : o = 128 * g0) (hoK : o + 512 ≤ 2048)
    (i0 : ∀ a, (![0, o] : Fin 2 → ℕ) a + (![512, 512] : Fin 2 → ℕ) a ≤ S512x2048.size a)
    (i1 : ∀ a, (![0, o] : Fin 2 → ℕ) a + (![1024, 512] : Fin 2 → ℕ) a ≤ S1024x2048.size a)
    (i2_0 : ∀ a, (![0, g0] : Fin 2 → ℕ) a + (![1024, 1] : Fin 2 → ℕ) a ≤ S1024x16.size a)
    (i2_128 : ∀ a, (![0, g0 + 1] : Fin 2 → ℕ) a + (![1024, 1] : Fin 2 → ℕ) a ≤ S1024x16.size a)
    (i2_256 : ∀ a, (![0, g0 + 2] : Fin 2 → ℕ) a + (![1024, 1] : Fin 2 → ℕ) a ≤ S1024x16.size a)
    (i2_384 : ∀ a, (![0, g0 + 3] : Fin 2 → ℕ) a + (![1024, 1] : Fin 2 → ℕ) a ≤ S1024x16.size a)
    (i3_0 : ∀ a, (![0, g0] : Fin 2 → ℕ) a + (![1024, 1] : Fin 2 → ℕ) a ≤ S1024x16.size a)
    (i3_128 : ∀ a, (![0, g0 + 1] : Fin 2 → ℕ) a + (![1024, 1] : Fin 2 → ℕ) a ≤ S1024x16.size a)
    (i3_256 : ∀ a, (![0, g0 + 2] : Fin 2 → ℕ) a + (![1024, 1] : Fin 2 → ℕ) a ≤ S1024x16.size a)
    (i3_384 : ∀ a, (![0, g0 + 3] : Fin 2 → ℕ) a + (![1024, 1] : Fin 2 → ℕ) a ≤ S1024x16.size a)
    (hq : S1024x512.ShapeCasts S1024x512) (hz : S1024x1.ShapeCasts S1024x1) (hlt : FTy.bits .bf16 < FTy.bits .f32)
    (hs0 : S1024x512.Slices ![0, 0] S1024x128) (hs128 : S1024x512.Slices ![0, 128] S1024x128)
    (hs256 : S1024x512.Slices ![0, 256] S1024x128) (hs384 : S1024x512.Slices ![0, 384] S1024x128)
    (hb : S1024x1.Broadcasts S1024x128) (hc : Shape.Concatenates [S1024x128, S1024x128, S1024x128, S1024x128] S1024x512 1)
    (b : Fin 512) (n : Fin 1024) :
    matmul (F := Ideal) (φ₁ := .bf16) (φ₂ := .bf16) dot_S512x512_S1024x512_S512x1024_1_1_0_0_n_n none (View.ld (Val := Elt Ideal) (e' := .bf16) x0 (Rect.unit ![0, o] ![512, 512] i0))
        (concatenate S1024x512 1
          [⟨S1024x128, subf (mulf (sitofp (F := Ideal) .bf16 (extractStridedSlice S1024x128 ![0, 0] (shapeCast S1024x512 (View.ld (Val := Elt Ideal) (e' := .i32) x1 (Rect.unit ![0, o] ![1024, 512] i1)) hq) hs0))
              (broadcastTo S1024x128 (truncf (F := Ideal) .bf16 (View.ld (Val := Elt Ideal) (e' := .f32) x2 (Rect.unit ![0, g0] ![1024, 1] i2_0)) hlt) hb))
            (broadcastTo S1024x128 (truncf (F := Ideal) .bf16 (shapeCast S1024x1 (View.ld (Val := Elt Ideal) (e' := .f32) x3 (Rect.unit ![0, g0] ![1024, 1] i3_0)) hz) hlt) hb)⟩,
           ⟨S1024x128, subf (mulf (sitofp (F := Ideal) .bf16 (extractStridedSlice S1024x128 ![0, 128] (shapeCast S1024x512 (View.ld (Val := Elt Ideal) (e' := .i32) x1 (Rect.unit ![0, o] ![1024, 512] i1)) hq) hs128))
              (broadcastTo S1024x128 (truncf (F := Ideal) .bf16 (View.ld (Val := Elt Ideal) (e' := .f32) x2 (Rect.unit ![0, g0 + 1] ![1024, 1] i2_128)) hlt) hb))
            (broadcastTo S1024x128 (truncf (F := Ideal) .bf16 (shapeCast S1024x1 (View.ld (Val := Elt Ideal) (e' := .f32) x3 (Rect.unit ![0, g0 + 1] ![1024, 1] i3_128)) hz) hlt) hb)⟩,
           ⟨S1024x128, subf (mulf (sitofp (F := Ideal) .bf16 (extractStridedSlice S1024x128 ![0, 256] (shapeCast S1024x512 (View.ld (Val := Elt Ideal) (e' := .i32) x1 (Rect.unit ![0, o] ![1024, 512] i1)) hq) hs256))
              (broadcastTo S1024x128 (truncf (F := Ideal) .bf16 (View.ld (Val := Elt Ideal) (e' := .f32) x2 (Rect.unit ![0, g0 + 2] ![1024, 1] i2_256)) hlt) hb))
            (broadcastTo S1024x128 (truncf (F := Ideal) .bf16 (shapeCast S1024x1 (View.ld (Val := Elt Ideal) (e' := .f32) x3 (Rect.unit ![0, g0 + 2] ![1024, 1] i3_256)) hz) hlt) hb)⟩,
           ⟨S1024x128, subf (mulf (sitofp (F := Ideal) .bf16 (extractStridedSlice S1024x128 ![0, 384] (shapeCast S1024x512 (View.ld (Val := Elt Ideal) (e' := .i32) x1 (Rect.unit ![0, o] ![1024, 512] i1)) hq) hs384))
              (broadcastTo S1024x128 (truncf (F := Ideal) .bf16 (View.ld (Val := Elt Ideal) (e' := .f32) x2 (Rect.unit ![0, g0 + 3] ![1024, 1] i2_384)) hlt) hb))
            (broadcastTo S1024x128 (truncf (F := Ideal) .bf16 (shapeCast S1024x1 (View.ld (Val := Elt Ideal) (e' := .f32) x3 (Rect.unit ![0, g0 + 3] ![1024, 1] i3_384)) hz) hlt) hb)⟩] hc)
        (constant (F := Ideal) S512x1024 .f32 0x00000000#32) (ix2 b n)
      = ∑ k : Fin 512, term (G := 16) rfl x0 x1 x2 x3 b n (o + k.val) := by
  rw [mm0_apply]
  refine Finset.sum_congr rfl fun k _ => ?_
  have hk : o + k.val < 2048 := by have := k.isLt; omega
  have hk4 : k.val / 128 < 4 := by have := k.isLt; omega
  rw [term_of_lt _ _ _ _ _ _ _ _ hk, ld_cols_apply, conc4_apply]
  refine congrArg₂ (· * ·) rfl ?_
  rcases (by omega : k.val / 128 = 0 ∨ k.val / 128 = 1 ∨ k.val / 128 = 2 ∨ k.val / 128 = 3) with hg | hg | hg | hg
  · have e : (⟨k.val / 128, hk4⟩ : Fin 4) = 0 := Fin.ext hg
    rw [e]
    refine (piece_apply x1 x2 x3 o g0 0 i1 i2_0 i3_0 hq hz hlt hs0 hb (by omega) hoK (by omega) n _).trans ?_
    exact close_piece x1 x2 x3 n _ _ _ _ (Fin.ext (by show o + (0 + k.val % 128) = o + k.val; omega))
      (Fin.ext (by show g0 = (o + k.val) / 128; omega))
  · have e : (⟨k.val / 128, hk4⟩ : Fin 4) = 1 := Fin.ext hg
    rw [e]
    refine (piece_apply x1 x2 x3 o (g0 + 1) 128 i1 i2_128 i3_128 hq hz hlt hs128 hb (by omega) hoK (by omega) n _).trans ?_
    exact close_piece x1 x2 x3 n _ _ _ _ (Fin.ext (by show o + (128 + k.val % 128) = o + k.val; omega))
      (Fin.ext (by show g0 + 1 = (o + k.val) / 128; omega))
  · have e : (⟨k.val / 128, hk4⟩ : Fin 4) = 2 := Fin.ext hg
    rw [e]
    refine (piece_apply x1 x2 x3 o (g0 + 2) 256 i1 i2_256 i3_256 hq hz hlt hs256 hb (by omega) hoK (by omega) n _).trans ?_
    exact close_piece x1 x2 x3 n _ _ _ _ (Fin.ext (by show o + (256 + k.val % 128) = o + k.val; omega))
      (Fin.ext (by show g0 + 2 = (o + k.val) / 128; omega))
  · have e : (⟨k.val / 128, hk4⟩ : Fin 4) = 3 := Fin.ext hg
    rw [e]
    refine (piece_apply x1 x2 x3 o (g0 + 3) 384 i1 i2_384 i3_384 hq hz hlt hs384 hb (by omega) hoK (by omega) n _).trans ?_
    exact close_piece x1 x2 x3 n _ _ _ _ (Fin.ext (by show o + (384 + k.val % 128) = o + k.val; omega))
      (Fin.ext (by show g0 + 3 = (o + k.val) / 128; omega))

end Cert.KernelIdeal.Chunk0

end
-- ==== Proof.Blk0.lean ====
/-
  What one grid point of the launch leaves in its output block.

  The body zeroes an accumulator, adds the chunks' products one after the other (each is the sum over 512 flat
  input positions of `x b k · (code n k · s n (k/128) − zs n (k/128))`), adds the bias row, takes max · 0 and stores
  the block.  So at entry `(b, n)` of the block it leaves the flat layer of the five input blocks followed by max · 0:
  the chunks' sums, taken in order from zero, are the sum over all 2048 positions.
-/
import proofs.«157148_j22162031247829_2_alg».proof.Proof.Gen.KernelIdeal.Frame
import proofs.«157148_j22162031247829_2_alg».proof.Proof.Chunk0
import proofs.«157148_j22162031247829_2_alg».proof.Proof.SpecSum
import Idealize.ShloMosaic.Lib.Pipeline.Value
import Idealize.ShloMosaic.Lib.ValueLayout
import Idealize.ShloMosaic.Lib.Tactic

noncomputable section

namespace Cert.KernelIdeal.Blk0

open Cert.KernelIdeal Cert.KernelIdeal.Gen Cert.QLinear
open Idealize.ShloMosaic Idealize.ShloMosaic.TcCoe Idealize.SL.Sem Idealize.ShloMosaic.ValueIdx

theorem hz : (![0, 0] : Fin 2 → Nat) = fun _ => 0 := funext fun a => by fin_cases a <;> rfl

/-- The block the body leaves, entry by entry. -/
theorem out0_A_5_eq (c : Dev nD) (i : grid0.Coords) (arg1 : Memref sig .tc .vmem S512x2048 .bf16) (harg1 : arg1.IsWhole) (arg2 : Memref sig .tc .vmem S1024x2048 .i32) (harg2 : arg2.IsWhole) (arg3 : Memref sig .tc .vmem S1024x16 .f32) (harg3 : arg3.IsWhole) (arg4 : Memref sig .tc .vmem S1024x16 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (x0 : Vec Ideal S512x2048 .bf16) (x1 : Vec Ideal S1024x2048 .i32) (x2 x3 : Vec Ideal S1024x16 .f32) (x4 : Vec Ideal S1x1024 .f32) :
    out0_A_5 (F := Ideal) c i arg1 harg1 arg2 harg2 arg3 harg3 arg4 harg4 arg5 harg5 arg6 harg6 arg7 harg7 x0 x1 x2 x3 x4
      = fun j => max (linFlat (G := 16) rfl x0 x1 x2 x3 x4 (j 0) (j 1)) 0 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readCov_cons_toLoadRect, View.readAt_eq_ld, harg1.read_unread, harg2.read_unread, harg3.read_unread, harg4.read_unread, harg5.read_unread]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  funext j
  obtain ⟨b, n, rfl⟩ : ∃ (b : Fin 512) (n : Fin 1024), j = ix2 b n := ⟨j 0, j 1, eq_ix2 j⟩
  show _ = max (linFlat (G := 16) rfl x0 x1 x2 x3 x4 b n) 0
  rw [linFlat_chain4]
  simp only [View.ld_unit_zero (S := S1x1024) hz, shapeCast_self, truncf_apply, maximumf_apply, addf_apply, broadcast_apply, broadcastTo_1b_ab_apply]
  rw [Chunk0.chunk_apply x0 x1 x2 x3 0 0 rfl (by norm_num)]
  rw [Chunk0.chunk_apply x0 x1 x2 x3 512 4 rfl (by norm_num)]
  rw [Chunk0.chunk_apply x0 x1 x2 x3 1024 8 rfl (by norm_num)]
  rw [Chunk0.chunk_apply x0 x1 x2 x3 1536 12 rfl (by norm_num)]
  have hzero : (FloatOps.ofBits (F := Ideal) FTy.f32 0x00000000#32 : EReal) = 0 := Ideal.ofBits_zero_f32
  rw [hzero]

end Cert.KernelIdeal.Blk0

end
-- ==== Proof.Region0.lean ====
/-
  From blocks to the array, first layer.

  The first launch visits 8 grid points.  At point `t` it reads the whole input `x` (512 × 2048), rows
  `1024·t … 1024·t + 1023` of the flat code matrix and of the two per-group tables, columns `1024·t …` of the bias
  row, and writes columns `1024·t … 1024·t + 1023` of the 512 × 8192 output.  What a point writes is the layer,
  followed by `max · 0`, of the blocks it read; a layer restricted to a block of output features is the full layer
  at the corresponding feature, so point `t` writes block `t` of ONE function of the arrays as the launch finds
  them.  The 8 column blocks cover the output (column `n` lies in block `n / 1024`), hence the output array ends
  holding that function.
-/
import proofs.«157148_j22162031247829_2_alg».proof.Proof.Gen.KernelIdeal.Frame
import proofs.«157148_j22162031247829_2_alg».proof.Proof.Blk0
import proofs.«157148_j22162031247829_2_alg».proof.Proof.Spec
import proofs.«157148_j22162031247829_2_alg».proof.Proof.SpecSum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

/-- The printed index maps, decided over the grid: the input block is always block (0, 0); the code tile and the two
    table tiles are at block row equal to the output's block column, block column 0; the bias block is at block
    (0, output's block column); the output's block row is 0 and its block column at most 7. -/
theorem idx_facts : ∀ t : Fin cfg0.N, win0_0.index t (0 : Fin 2) = 0 ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) = 0 ∧ win0_5.index t (1 : Fin 2) ≤ 7 :=
  (by decide +kernel : ∀ t : Fin grid0.N, _)

/-- Every block column of the output is some point's. -/
theorem idx_onto : ∀ q : Fin 8, ∃ t : Fin cfg0.N, win0_5.index t = ![0, q.val] :=
  (by decide +kernel : ∀ q : Fin 8, ∃ t : Fin grid0.N, win0_5.index t = ![0, q.val])

/-- The function the output array ends holding: the layer of the arrays as the launch finds them, then `max · 0`. -/
abbrev layer (c : Dev nD) : S512x8192.Idx → EReal := fun i =>
  max (Cert.QLinear.linFlat (G := 16) rfl (V c main_v4 : S512x2048.Idx → EReal) (V c main_v0 : S8192x2048.Idx → BitVec 32)
    (V c main_arg2 : S8192x16.Idx → EReal) (V c main_v2 : S8192x16.Idx → EReal) (V c main_v5 : S1x8192.Idx → EReal) (i 0) (i 1)) 0

/-! ## Each input block read where the output's block says -/

/-- The input block at any point is the whole input. -/
theorem xblk_apply (c : Dev nD) (t : Fin cfg0.N) (b : Fin 512) (k : Fin 2048) :
    (iblk0 V c 0 t : S512x2048.Idx → EReal) (ix2 b k) = (V c main_v4 : S512x2048.Idx → EReal) (ix2 b k) := by
  obtain ⟨e0, e1, -⟩ := idx_facts t
  unfold iblk0
  rw [View.read_apply]
  show V c main_v4 _ = V c main_v4 _
  congr 1
  funext a
  apply Fin.ext
  match a with
  | ⟨0, _⟩ => show win0_0.index t (0 : Fin 2) * 512 + 1 * b.val = b.val; rw [e0]; omega
  | ⟨1, _⟩ => show win0_0.index t (1 : Fin 2) * 2048 + 1 * k.val = k.val; rw [e1]; omega

/-- Row `n'` of the code tile at a point is row `n` of the code matrix, `n` = 1024 · (the point's block) + `n'`. -/
theorem qblk_apply (c : Dev nD) (t : Fin cfg0.N) (n' : Fin 1024) (k : Fin 2048) (n : Fin 8192)
    (hn : n.val = win0_5.index t (1 : Fin 2) * 1024 + n'.val) :
    (iblk0 V c 1 t : S1024x2048.Idx → BitVec 32) (ix2 n' k) = (V c main_v0 : S8192x2048.Idx → BitVec 32) (ix2 n k) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t (0 : Fin 2) * 1024 + 1 * n'.val = n.val; rw [e0, hn]; omega
  | ⟨1, _⟩ => show win0_1.index t (1 : Fin 2) * 2048 + 1 * k.val = k.val; rw [e1]; omega

/-- Likewise the scale tile. -/
theorem sblk_apply (c : Dev nD) (t : Fin cfg0.N) (n' : Fin 1024) (g : Fin 16) (n : Fin 8192)
    (hn : n.val = win0_5.index t (1 : Fin 2) * 1024 + n'.val) :
    (iblk0 V c 2 t : S1024x16.Idx → EReal) (ix2 n' g) = (V c main_arg2 : S8192x16.Idx → EReal) (ix2 n g) := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 1024 + 1 * n'.val = n.val; rw [e0, hn]; omega
  | ⟨1, _⟩ => show win0_2.index t (1 : Fin 2) * 16 + 1 * g.val = g.val; rw [e1]; omega

/-- Likewise the tile of zero point times scale. -/
theorem zblk_apply (c : Dev nD) (t : Fin cfg0.N) (n' : Fin 1024) (g : Fin 16) (n : Fin 8192)
    (hn : n.val = win0_5.index t (1 : Fin 2) * 1024 + n'.val) :
    (iblk0 V c 3 t : S1024x16.Idx → EReal) (ix2 n' g) = (V c main_v2 : S8192x16.Idx → EReal) (ix2 n g) := by
  obtain ⟨-, -, -, -, -, -, e0, e1, -⟩ := idx_facts t
  unfold iblk0
  rw [View.read_apply]
  show V c main_v2 _ = V c main_v2 _
  congr 1
  funext a
  apply Fin.ext
  match a with
  | ⟨0, _⟩ => show win0_3.index t (0 : Fin 2) * 1024 + 1 * n'.val = n.val; rw [e0, hn]; omega
  | ⟨1, _⟩ => show win0_3.index t (1 : Fin 2) * 16 + 1 * g.val = g.val; rw [e1]; omega

/-- Column `n'` of the bias block at a point is column `n` of the bias row. -/
theorem bblk_apply (c : Dev nD) (t : Fin cfg0.N) (n' : Fin 1024) (n : Fin 8192)
    (hn : n.val = win0_5.index t (1 : Fin 2) * 1024 + n'.val) :
    (iblk0 V c 4 t : S1x1024.Idx → EReal) (ix2 (0 : Fin 1) n') = (V c main_v5 : S1x8192.Idx → EReal) (ix2 (0 : Fin 1) n) := by
  obtain ⟨-, -, -, -, -, -, -, -, e0, e1, -⟩ := idx_facts t
  unfold iblk0
  rw [View.read_apply]
  show V c main_v5 _ = V c main_v5 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * n'.val = n.val; rw [e1, hn]; omega

/-! ## What a point writes back -/

/-- The layer of the blocks at a point, at row `b` and block column `n'`, is the layer of the arrays at `(b, n)`. -/
theorem layer_blocks (c : Dev nD) (t : Fin cfg0.N) (b : Fin 512) (n' : Fin 1024) (n : Fin 8192)
    (hn : n.val = win0_5.index t (1 : Fin 2) * 1024 + n'.val) :
    max (Cert.QLinear.linFlat (G := 16) rfl (iblk0 V c 0 t : S512x2048.Idx → EReal) (iblk0 V c 1 t : S1024x2048.Idx → BitVec 32)
      (iblk0 V c 2 t : S1024x16.Idx → EReal) (iblk0 V c 3 t : S1024x16.Idx → EReal) (iblk0 V c 4 t : S1x1024.Idx → EReal) b n') 0
      = layer V c (ix2 b n) := by
  show max _ 0 = max _ 0
  rw [Cert.QLinear.linFlat_rows (G := 16) rfl (V c main_v4 : S512x2048.Idx → EReal) (iblk0 V c 0 t : S512x2048.Idx → EReal)
    (V c main_v0 : S8192x2048.Idx → BitVec 32) (iblk0 V c 1 t : S1024x2048.Idx → BitVec 32)
    (V c main_arg2 : S8192x16.Idx → EReal) (V c main_v2 : S8192x16.Idx → EReal)
    (iblk0 V c 2 t : S1024x16.Idx → EReal) (iblk0 V c 3 t : S1024x16.Idx → EReal)
    (V c main_v5 : S1x8192.Idx → EReal) (iblk0 V c 4 t : S1x1024.Idx → EReal)
    (win0_5.index t (1 : Fin 2) * 1024) b n' n hn
    (fun k => xblk_apply V c t b k) (fun k => qblk_apply V c t n' k n hn) (fun g => sblk_apply V c t n' g n hn)
    (fun g => zblk_apply V c t n' g n hn) (bblk_apply V c t n' n hn)]

/-- WHAT POINT `t` WRITES BACK is block `t` of `layer`. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold outsAt0
  rw [Blk0.out0_A_5_eq]
  obtain ⟨-, -, -, -, -, -, -, -, -, -, e0, e1⟩ := idx_facts t
  funext j
  obtain ⟨b, n', rfl⟩ : ∃ (b : Fin 512) (n' : Fin 1024), j = ix2 b n' := ⟨j 0, j 1, eq_ix2 j⟩
  have hlt : win0_5.index t (1 : Fin 2) * 1024 + n'.val < 8192 := by have := n'.isLt; omega
  rw [View.read_apply]
  refine (layer_blocks V c t b n' ⟨win0_5.index t (1 : Fin 2) * 1024 + n'.val, hlt⟩ rfl).trans ?_
  show layer V c _ = layer V c _
  congr 1
  funext a
  apply Fin.ext
  match a with
  | ⟨0, _⟩ => show b.val = win0_5.index t (0 : Fin 2) * 512 + 1 * b.val; rw [e0]; omega
  | ⟨1, _⟩ => show win0_5.index t (1 : Fin 2) * 1024 + n'.val = win0_5.index t (1 : Fin 2) * 1024 + 1 * n'.val; omega

/-! ## The blocks cover the array -/

/-- An index of the array is in point `t`'s block iff each coordinate is in the block's range on its axis. -/
theorem mem_blk (t : Fin cfg0.N) (i : S512x8192.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- Every index of the output array is in the block of some point that writes back: column `n` in block `n / 1024`. -/
theorem cover (i : S512x8192.Idx) :
    ∃ t : Fin cfg0.N, (cfg0.win 5).flush t = true ∧ i ∈ ((cfg0.win 5).blk t).view.set := by
  have hi0 : (i 0).val < 512 := (i 0).isLt
  have hi1 : (i 1).val < 8192 := (i 1).isLt
  obtain ⟨t, ht⟩ := idx_onto ⟨(i 1).val / 1024, by omega⟩
  have q0 : win0_5.index t (0 : Fin 2) = 0 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The array after the launch -/

/-- The launch leaves in its output array the first layer of the arrays as it finds them, followed by `max · 0`. -/
theorem final0 (c : Dev nD) : (dat0 V c).arrAt 5 cfg0.N
    = fun i => max (Cert.QLinear.linFlat (G := 16) rfl (V c main_v4 : S512x2048.Idx → EReal) (V c main_v0 : S8192x2048.Idx → BitVec 32)
        (V c main_arg2 : S8192x16.Idx → EReal) (V c main_v2 : S8192x16.Idx → EReal) (V c main_v5 : S1x8192.Idx → EReal) (i 0) (i 1)) 0 :=
  (dat0 V c).arrAt_eq_of_cover 5 (layer V c) (fun t _ => flushed_eq V c t) cover

end Cert.KernelIdeal.Region0

end
-- ==== Proof.Chunk1.lean ====
/-
  One chunk of a launch's accumulation, read at an output entry.

  The kernel walks the 8192 input features 512 at a time.  For the chunk that starts at flat position `o = 128·g₀` it
  loads 512 columns of the activation block and of the code tile, forms the dequantised weight tile as four
  128-column panels — panel `p` is `code · scale − (zero·scale)` with the scale and the product taken from column
  `g₀ + p` of the two tables, broadcast along the panel — lays the panels side by side and multiplies the activation
  chunk by the transpose of that tile.  At output entry `(b, n)` this is the sum over the chunk's 512 positions of
  `x b k · (code n k · s n (k/128) − zs n (k/128))`: the summand of the flat layer at the positions `o, …, o + 511`.
  Rounding to the narrower float format and the shape casts between equal shapes are identities on extended reals.
-/
import proofs.«157148_j22162031247829_2_alg».proof.KernelIdeal
import proofs.«157148_j22162031247829_2_alg».proof.Proof.Gen.KernelIdeal
import proofs.«157148_j22162031247829_2_alg».proof.Proof.Spec
import proofs.«157148_j22162031247829_2_alg».proof.Proof.SpecSum
import proofs.«157148_j22162031247829_2_alg».proof.Proof.BlkLemmas

noncomputable section

namespace Cert.KernelIdeal.Chunk1

open Cert.KernelIdeal Cert.KernelIdeal.Blk Cert.QLinear Idealize.ShloMosaic Idealize.ShloMosaic.ValueIdx

/-- One 128-column panel of a chunk's weight tile at row `n`, column `j`: the code at flat position `o + off + j`
    times the panel's scale, minus the panel's `zero·scale` entry. -/
theorem piece_apply (x1 : Vec Ideal S256x8192 .i32) (x2 x3 : Vec Ideal S256x64 .f32) (o gg off : ℕ)
    (i1 : ∀ a, (![0, o] : Fin 2 → ℕ) a + (![256, 512] : Fin 2 → ℕ) a ≤ S256x8192.size a)
    (i2 : ∀ a, (![0, gg] : Fin 2 → ℕ) a + (![256, 1] : Fin 2 → ℕ) a ≤ S256x64.size a)
    (i3 : ∀ a, (![0, gg] : Fin 2 → ℕ) a + (![256, 1] : Fin 2 → ℕ) a ≤ S256x64.size a)
    (hq : S256x512.ShapeCasts S256x512) (hz : S256x1.ShapeCasts S256x1) (hlt : FTy.bits .bf16 < FTy.bits .f32)
    (hs : S256x512.Slices ![0, off] S256x128) (hb : S256x1.Broadcasts S256x128)
    (hoff : off + 128 ≤ 512) (hoK : o + 512 ≤ 8192) (hg : gg < 64) (n : Fin 256) (j : Fin 128) :
    subf (mulf (sitofp (F := Ideal) .bf16 (extractStridedSlice S256x128 ![0, off] (shapeCast S256x512 (View.ld (Val := Elt Ideal) (e' := .i32) x1 (Rect.unit ![0, o] ![256, 512] i1)) hq) hs))
          (broadcastTo S256x128 (truncf (F := Ideal) .bf16 (View.ld (Val := Elt Ideal) (e' := .f32) x2 (Rect.unit ![0, gg] ![256, 1] i2)) hlt) hb))
        (broadcastTo S256x128 (truncf (F := Ideal) .bf16 (shapeCast S256x1 (View.ld (Val := Elt Ideal) (e' := .f32) x3 (Rect.unit ![0, gg] ![256, 1] i3)) hz) hlt) hb) (ix2 n j)
      = code (x1 (ix2 n ⟨o + (off + j.val), by have := j.isLt; omega⟩)) * x2 (ix2 n ⟨gg, hg⟩) - x3 (ix2 n ⟨gg, hg⟩) := by
  rw [subf_apply, mulf_apply, sitofp_apply, slice_cols_apply _ off hs hoff n j, bcol_apply, bcol_apply, truncf_apply, truncf_apply]
  rw [congrFun (shapeCast_self (s := S256x512) _ hq) _, congrFun (shapeCast_self (s := S256x1) _ hz) _]
  rw [ld_cols_apply, ld_cols_apply, ld_cols_apply]
  rfl

/-- Two spellings of one weight entry agree when their positions and groups do. -/
theorem close_piece (x1 : Vec Ideal S256x8192 .i32) (x2 x3 : Vec Ideal S256x64 .f32) (n : Fin 256) (a a' : Fin 8192) (g g' : Fin 64)
    (ha : a = a') (hg : g = g') :
    code (x1 (ix2 n a)) * x2 (ix2 n g) - x3 (ix2 n g) = code (x1 (ix2 n a')) * x2 (ix2 n g') - x3 (ix2 n g') := by
  subst ha hg; rfl

/-- The chunk at flat position `o = 128·g₀`, read at output entry `(b, n)`. -/
theorem chunk_apply (x0 : Vec Ideal S512x8192 .bf16) (x1 : Vec Ideal S256x8192 .i32) (x2 x3 : Vec Ideal S256x64 .f32) (o g0 : ℕ)
    (ho : o = 128 * g0) (hoK : o + 512 ≤ 8192)
    (i0 : ∀ a, (![0, o] : Fin 2 → ℕ) a + (![512, 512] : Fin 2 → ℕ) a ≤ S512x8192.size a)
    (i1 : ∀ a, (![0, o] : Fin 2 → ℕ) a + (![256, 512] : Fin 2 → ℕ) a ≤ S256x8192.size a)
    (i2_0 : ∀ a, (![0, g0] : Fin 2 → ℕ) a + (![256, 1] : Fin 2 → ℕ) a ≤ S256x64.size a)
    (i2_128 : ∀ a, (![0, g0 + 1] : Fin 2 → ℕ) a + (![256, 1] : Fin 2 → ℕ) a ≤ S256x64.size a)
    (i2_256 : ∀ a, (![0, g0 + 2] : Fin 2 → ℕ) a + (![256, 1] : Fin 2 → ℕ) a ≤ S256x64.size a)
    (i2_384 : ∀ a, (![0, g0 + 3] : Fin 2 → ℕ) a + (![256, 1] : Fin 2 → ℕ) a ≤ S256x64.size a)
    (i3_0 : ∀ a, (![0, g0] : Fin 2 → ℕ) a + (![256, 1] : Fin 2 → ℕ) a ≤ S256x64.size a)
    (i3_128 : ∀ a, (![0, g0 + 1] : Fin 2 → ℕ) a + (![256, 1] : Fin 2 → ℕ) a ≤ S256x64.size a)
    (i3_256 : ∀ a, (![0, g0 + 2] : Fin 2 → ℕ) a + (![256, 1] : Fin 2 → ℕ) a ≤ S256x64.size a)
    (i3_384 : ∀ a, (![0, g0 + 3] : Fin 2 → ℕ) a + (![256, 1] : Fin 2 → ℕ) a ≤ S256x64.size a)
    (hq : S256x512.ShapeCasts S256x512) (hz : S256x1.ShapeCasts S256x1) (hlt : FTy.bits .bf16 < FTy.bits .f32)
    (hs0 : S256x512.Slices ![0, 0] S256x128) (hs128 : S256x512.Slices ![0, 128] S256x128)
    (hs256 : S256x512.Slices ![0, 256] S256x128) (hs384 : S256x512.Slices ![0, 384] S256x128)
    (hb : S256x1.Broadcasts S256x128) (hc : Shape.Concatenates [S256x128, S256x128, S256x128, S256x128] S256x512 1)
    (b : Fin 512) (n : Fin 256) :
    matmul (F := Ideal) (φ₁ := .bf16) (φ₂ := .bf16) dot_S512x512_S256x512_S512x256_1_1_0_0_n_n none (View.ld (Val := Elt Ideal) (e' := .bf16) x0 (Rect.unit ![0, o] ![512, 512] i0))
        (concatenate S256x512 1
          [⟨S256x128, subf (mulf (sitofp (F := Ideal) .bf16 (extractStridedSlice S256x128 ![0, 0] (shapeCast S256x512 (View.ld (Val := Elt Ideal) (e' := .i32) x1 (Rect.unit ![0, o] ![256, 512] i1)) hq) hs0))
              (broadcastTo S256x128 (truncf (F := Ideal) .bf16 (View.ld (Val := Elt Ideal) (e' := .f32) x2 (Rect.unit ![0, g0] ![256, 1] i2_0)) hlt) hb))
            (broadcastTo S256x128 (truncf (F := Ideal) .bf16 (shapeCast S256x1 (View.ld (Val := Elt Ideal) (e' := .f32) x3 (Rect.unit ![0, g0] ![256, 1] i3_0)) hz) hlt) hb)⟩,
           ⟨S256x128, subf (mulf (sitofp (F := Ideal) .bf16 (extractStridedSlice S256x128 ![0, 128] (shapeCast S256x512 (View.ld (Val := Elt Ideal) (e' := .i32) x1 (Rect.unit ![0, o] ![256, 512] i1)) hq) hs128))
              (broadcastTo S256x128 (truncf (F := Ideal) .bf16 (View.ld (Val := Elt Ideal) (e' := .f32) x2 (Rect.unit ![0, g0 + 1] ![256, 1] i2_128)) hlt) hb))
            (broadcastTo S256x128 (truncf (F := Ideal) .bf16 (shapeCast S256x1 (View.ld (Val := Elt Ideal) (e' := .f32) x3 (Rect.unit ![0, g0 + 1] ![256, 1] i3_128)) hz) hlt) hb)⟩,
           ⟨S256x128, subf (mulf (sitofp (F := Ideal) .bf16 (extractStridedSlice S256x128 ![0, 256] (shapeCast S256x512 (View.ld (Val := Elt Ideal) (e' := .i32) x1 (Rect.unit ![0, o] ![256, 512] i1)) hq) hs256))
              (broadcastTo S256x128 (truncf (F := Ideal) .bf16 (View.ld (Val := Elt Ideal) (e' := .f32) x2 (Rect.unit ![0, g0 + 2] ![256, 1] i2_256)) hlt) hb))
            (broadcastTo S256x128 (truncf (F := Ideal) .bf16 (shapeCast S256x1 (View.ld (Val := Elt Ideal) (e' := .f32) x3 (Rect.unit ![0, g0 + 2] ![256, 1] i3_256)) hz) hlt) hb)⟩,
           ⟨S256x128, subf (mulf (sitofp (F := Ideal) .bf16 (extractStridedSlice S256x128 ![0, 384] (shapeCast S256x512 (View.ld (Val := Elt Ideal) (e' := .i32) x1 (Rect.unit ![0, o] ![256, 512] i1)) hq) hs384))
              (broadcastTo S256x128 (truncf (F := Ideal) .bf16 (View.ld (Val := Elt Ideal) (e' := .f32) x2 (Rect.unit ![0, g0 + 3] ![256, 1] i2_384)) hlt) hb))
            (broadcastTo S256x128 (truncf (F := Ideal) .bf16 (shapeCast S256x1 (View.ld (Val := Elt Ideal) (e' := .f32) x3 (Rect.unit ![0, g0 + 3] ![256, 1] i3_384)) hz) hlt) hb)⟩] hc)
        (constant (F := Ideal) S512x256 .f32 0x00000000#32) (ix2 b n)
      = ∑ k : Fin 512, term (G := 64) rfl x0 x1 x2 x3 b n (o + k.val) := by
  rw [mm1_apply]
  refine Finset.sum_congr rfl fun k _ => ?_
  have hk : o + k.val < 8192 := by have := k.isLt; omega
  have hk4 : k.val / 128 < 4 := by have := k.isLt; omega
  rw [term_of_lt _ _ _ _ _ _ _ _ hk, ld_cols_apply, conc4_apply]
  refine congrArg₂ (· * ·) rfl ?_
  rcases (by omega : k.val / 128 = 0 ∨ k.val / 128 = 1 ∨ k.val / 128 = 2 ∨ k.val / 128 = 3) with hg | hg | hg | hg
  · have e : (⟨k.val / 128, hk4⟩ : Fin 4) = 0 := Fin.ext hg
    rw [e]
    refine (piece_apply x1 x2 x3 o g0 0 i1 i2_0 i3_0 hq hz hlt hs0 hb (by omega) hoK (by omega) n _).trans ?_
    exact close_piece x1 x2 x3 n _ _ _ _ (Fin.ext (by show o + (0 + k.val % 128) = o + k.val; omega))
      (Fin.ext (by show g0 = (o + k.val) / 128; omega))
  · have e : (⟨k.val / 128, hk4⟩ : Fin 4) = 1 := Fin.ext hg
    rw [e]
    refine (piece_apply x1 x2 x3 o (g0 + 1) 128 i1 i2_128 i3_128 hq hz hlt hs128 hb (by omega) hoK (by omega) n _).trans ?_
    exact close_piece x1 x2 x3 n _ _ _ _ (Fin.ext (by show o + (128 + k.val % 128) = o + k.val; omega))
      (Fin.ext (by show g0 + 1 = (o + k.val) / 128; omega))
  · have e : (⟨k.val / 128, hk4⟩ : Fin 4) = 2 := Fin.ext hg
    rw [e]
    refine (piece_apply x1 x2 x3 o (g0 + 2) 256 i1 i2_256 i3_256 hq hz hlt hs256 hb (by omega) hoK (by omega) n _).trans ?_
    exact close_piece x1 x2 x3 n _ _ _ _ (Fin.ext (by show o + (256 + k.val % 128) = o + k.val; omega))
      (Fin.ext (by show g0 + 2 = (o + k.val) / 128; omega))
  · have e : (⟨k.val / 128, hk4⟩ : Fin 4) = 3 := Fin.ext hg
    rw [e]
    refine (piece_apply x1 x2 x3 o (g0 + 3) 384 i1 i2_384 i3_384 hq hz hlt hs384 hb (by omega) hoK (by omega) n _).trans ?_
    exact close_piece x1 x2 x3 n _ _ _ _ (Fin.ext (by show o + (384 + k.val % 128) = o + k.val; omega))
      (Fin.ext (by show g0 + 3 = (o + k.val) / 128; omega))

end Cert.KernelIdeal.Chunk1

end
-- ==== Proof.Blk1.lean ====
/-
  What one grid point of the launch leaves in its output block.

  The body zeroes an accumulator, adds the chunks' products one after the other (each is the sum over 512 flat
  input positions of `x b k · (code n k · s n (k/128) − zs n (k/128))`), adds the bias row and stores
  the block.  So at entry `(b, n)` of the block it leaves the flat layer of the five input blocks:
  the chunks' sums, taken in order from zero, are the sum over all 8192 positions.
-/
import proofs.«157148_j22162031247829_2_alg».proof.Proof.Gen.KernelIdeal.Frame
import proofs.«157148_j22162031247829_2_alg».proof.Proof.Chunk1
import proofs.«157148_j22162031247829_2_alg».proof.Proof.SpecSum
import Idealize.ShloMosaic.Lib.Pipeline.Value
import Idealize.ShloMosaic.Lib.ValueLayout
import Idealize.ShloMosaic.Lib.Tactic

noncomputable section

namespace Cert.KernelIdeal.Blk1

open Cert.KernelIdeal Cert.KernelIdeal.Gen Cert.QLinear
open Idealize.ShloMosaic Idealize.ShloMosaic.TcCoe Idealize.SL.Sem Idealize.ShloMosaic.ValueIdx

theorem hz : (![0, 0] : Fin 2 → Nat) = fun _ => 0 := funext fun a => by fin_cases a <;> rfl

/-- The block the body leaves, entry by entry. -/
theorem out1_A_5_eq (c : Dev nD) (i : grid1.Coords) (arg1 : Memref sig .tc .vmem S512x8192 .bf16) (harg1 : arg1.IsWhole) (arg2 : Memref sig .tc .vmem S256x8192 .i32) (harg2 : arg2.IsWhole) (arg3 : Memref sig .tc .vmem S256x64 .f32) (harg3 : arg3.IsWhole) (arg4 : Memref sig .tc .vmem S256x64 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .f32) (harg7 : arg7.IsWhole)
    (x0 : Vec Ideal S512x8192 .bf16) (x1 : Vec Ideal S256x8192 .i32) (x2 x3 : Vec Ideal S256x64 .f32) (x4 : Vec Ideal S1x256 .f32) :
    out1_A_5 (F := Ideal) c i arg1 harg1 arg2 harg2 arg3 harg3 arg4 harg4 arg5 harg5 arg6 harg6 arg7 harg7 x0 x1 x2 x3 x4
      = fun j => linFlat (G := 64) rfl x0 x1 x2 x3 x4 (j 0) (j 1) := by
  unfold out1_A_5
  rw [View.read_writes_eq_canon _ _ _ (cover1_A_5 c i arg1 harg1 arg2 harg2 arg3 harg3 arg4 harg4 arg5 harg5 arg6 harg6 arg7 harg7 x0 x1 x2 x3 x4)]
  unfold kernelRun1_A
  dsimp only
  sl_unfold_words
  rw [View.canon_unit_zero hz]
  simp only [View.readCov_cons_toLoadRect, View.readAt_eq_ld, harg1.read_unread, harg2.read_unread, harg3.read_unread, harg4.read_unread, harg5.read_unread]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108]
  funext j
  obtain ⟨b, n, rfl⟩ : ∃ (b : Fin 512) (n : Fin 256), j = ix2 b n := ⟨j 0, j 1, eq_ix2 j⟩
  show _ = linFlat (G := 64) rfl x0 x1 x2 x3 x4 b n
  rw [linFlat_chain16]
  simp only [View.ld_unit_zero (S := S1x256) hz, shapeCast_self, truncf_apply, maximumf_apply, addf_apply, broadcast_apply, broadcastTo_1b_ab_apply]
  rw [Chunk1.chunk_apply x0 x1 x2 x3 0 0 rfl (by norm_num)]
  rw [Chunk1.chunk_apply x0 x1 x2 x3 512 4 rfl (by norm_num)]
  rw [Chunk1.chunk_apply x0 x1 x2 x3 1024 8 rfl (by norm_num)]
  rw [Chunk1.chunk_apply x0 x1 x2 x3 1536 12 rfl (by norm_num)]
  rw [Chunk1.chunk_apply x0 x1 x2 x3 2048 16 rfl (by norm_num)]
  rw [Chunk1.chunk_apply x0 x1 x2 x3 2560 20 rfl (by norm_num)]
  rw [Chunk1.chunk_apply x0 x1 x2 x3 3072 24 rfl (by norm_num)]
  rw [Chunk1.chunk_apply x0 x1 x2 x3 3584 28 rfl (by norm_num)]
  rw [Chunk1.chunk_apply x0 x1 x2 x3 4096 32 rfl (by norm_num)]
  rw [Chunk1.chunk_apply x0 x1 x2 x3 4608 36 rfl (by norm_num)]
  rw [Chunk1.chunk_apply x0 x1 x2 x3 5120 40 rfl (by norm_num)]
  rw [Chunk1.chunk_apply x0 x1 x2 x3 5632 44 rfl (by norm_num)]
  rw [Chunk1.chunk_apply x0 x1 x2 x3 6144 48 rfl (by norm_num)]
  rw [Chunk1.chunk_apply x0 x1 x2 x3 6656 52 rfl (by norm_num)]
  rw [Chunk1.chunk_apply x0 x1 x2 x3 7168 56 rfl (by norm_num)]
  rw [Chunk1.chunk_apply x0 x1 x2 x3 7680 60 rfl (by norm_num)]
  have hzero : (FloatOps.ofBits (F := Ideal) FTy.f32 0x00000000#32 : EReal) = 0 := Ideal.ofBits_zero_f32
  rw [hzero]

end Cert.KernelIdeal.Blk1

end
-- ==== Proof.Region1.lean ====
/-
  From blocks to the array, second layer.

  The second launch visits 8 grid points.  At point `t` it reads the whole hidden activation (512 × 8192), rows
  `256·t … 256·t + 255` of the flat code matrix and of the two per-group tables, columns `256·t …` of the bias
  row, and writes columns `256·t … 256·t + 255` of the 512 × 2048 output.  What a point writes is the layer of the
  blocks it read; a layer restricted to a block of output features is the full layer at the corresponding feature,
  so point `t` writes block `t` of ONE function of the arrays as the launch finds them.  The 8 column blocks cover
  the output (column `n` lies in block `n / 256`), hence the output array ends holding that function.
-/
import proofs.«157148_j22162031247829_2_alg».proof.Proof.Gen.KernelIdeal.Frame
import proofs.«157148_j22162031247829_2_alg».proof.Proof.Blk1
import proofs.«157148_j22162031247829_2_alg».proof.Proof.Spec
import proofs.«157148_j22162031247829_2_alg».proof.Proof.SpecSum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable (V : (c : Dev nD) → (b : Ref sig .tc) → Buf (Elt Ideal) ((c : Thread nD τ).loc b))

/-- The printed index maps, decided over the grid: the input block is always block (0, 0); the code tile and the two
    table tiles are at block row equal to the output's block column, block column 0; the bias block is at block
    (0, output's block column); the output's block row is 0 and its block column at most 7. -/
theorem idx_facts : ∀ t : Fin cfg1.N, win1_0.index t (0 : Fin 2) = 0 ∧ win1_0.index t (1 : Fin 2) = 0
    ∧ win1_1.index t (0 : Fin 2) = win1_5.index t (1 : Fin 2) ∧ win1_1.index t (1 : Fin 2) = 0
    ∧ win1_2.index t (0 : Fin 2) = win1_5.index t (1 : Fin 2) ∧ win1_2.index t (1 : Fin 2) = 0
    ∧ win1_3.index t (0 : Fin 2) = win1_5.index t (1 : Fin 2) ∧ win1_3.index t (1 : Fin 2) = 0
    ∧ win1_4.index t (0 : Fin 2) = 0 ∧ win1_4.index t (1 : Fin 2) = win1_5.index t (1 : Fin 2)
    ∧ win1_5.index t (0 : Fin 2) = 0 ∧ win1_5.index t (1 : Fin 2) ≤ 7 :=
  (by decide +kernel : ∀ t : Fin grid1.N, _)

/-- Every block column of the output is some point's. -/
theorem idx_onto : ∀ q : Fin 8, ∃ t : Fin cfg1.N, win1_5.index t = ![0, q.val] :=
  (by decide +kernel : ∀ q : Fin 8, ∃ t : Fin grid1.N, win1_5.index t = ![0, q.val])

/-- The function the output array ends holding: the layer of the arrays as the launch finds them. -/
abbrev layer (c : Dev nD) : S512x2048.Idx → EReal := fun i =>
  Cert.QLinear.linFlat (G := 64) rfl (V c main_v6 : S512x8192.Idx → EReal) (V c main_v1 : S2048x8192.Idx → BitVec 32)
    (V c main_arg6 : S2048x64.Idx → EReal) (V c main_v3 : S2048x64.Idx → EReal) (V c main_v7 : S1x2048.Idx → EReal) (i 0) (i 1)

/-! ## Each input block read where the output's block says -/

/-- The input block at any point is the whole input. -/
theorem xblk_apply (c : Dev nD) (t : Fin cfg1.N) (b : Fin 512) (k : Fin 8192) :
    (iblk1 V c 0 t : S512x8192.Idx → EReal) (ix2 b k) = (V c main_v6 : S512x8192.Idx → EReal) (ix2 b k) := by
  obtain ⟨e0, e1, -⟩ := idx_facts t
  unfold iblk1
  rw [View.read_apply]
  show V c main_v6 _ = V c main_v6 _
  congr 1
  funext a
  apply Fin.ext
  match a with
  | ⟨0, _⟩ => show win1_0.index t (0 : Fin 2) * 512 + 1 * b.val = b.val; rw [e0]; omega
  | ⟨1, _⟩ => show win1_0.index t (1 : Fin 2) * 8192 + 1 * k.val = k.val; rw [e1]; omega

/-- Row `n'` of the code tile at a point is row `n` of the code matrix, `n` = 256 · (the point's block) + `n'`. -/
theorem qblk_apply (c : Dev nD) (t : Fin cfg1.N) (n' : Fin 256) (k : Fin 8192) (n : Fin 2048)
    (hn : n.val = win1_5.index t (1 : Fin 2) * 256 + n'.val) :
    (iblk1 V c 1 t : S256x8192.Idx → BitVec 32) (ix2 n' k) = (V c main_v1 : S2048x8192.Idx → BitVec 32) (ix2 n k) := by
  obtain ⟨-, -, e0, e1, -⟩ := idx_facts t
  unfold iblk1
  rw [View.read_apply]
  show V c main_v1 _ = V c main_v1 _
  congr 1
  funext a
  apply Fin.ext
  match a with
  | ⟨0, _⟩ => show win1_1.index t (0 : Fin 2) * 256 + 1 * n'.val = n.val; rw [e0, hn]; omega
  | ⟨1, _⟩ => show win1_1.index t (1 : Fin 2) * 8192 + 1 * k.val = k.val; rw [e1]; omega

/-- Likewise the scale tile. -/
theorem sblk_apply (c : Dev nD) (t : Fin cfg1.N) (n' : Fin 256) (g : Fin 64) (n : Fin 2048)
    (hn : n.val = win1_5.index t (1 : Fin 2) * 256 + n'.val) :
    (iblk1 V c 2 t : S256x64.Idx → EReal) (ix2 n' g) = (V c main_arg6 : S2048x64.Idx → EReal) (ix2 n g) := by
  obtain ⟨-, -, -, -, e0, e1, -⟩ := idx_facts t
  unfold iblk1
  rw [View.read_apply]
  show V c main_arg6 _ = V c main_arg6 _
  congr 1
  funext a
  apply Fin.ext
  match a with
  | ⟨0, _⟩ => show win1_2.index t (0 : Fin 2) * 256 + 1 * n'.val = n.val; rw [e0, hn]; omega
  | ⟨1, _⟩ => show win1_2.index t (1 : Fin 2) * 64 + 1 * g.val = g.val; rw [e1]; omega

/-- Likewise the tile of zero point times scale. -/
theorem zblk_apply (c : Dev nD) (t : Fin cfg1.N) (n' : Fin 256) (g : Fin 64) (n : Fin 2048)
    (hn : n.val = win1_5.index t (1 : Fin 2) * 256 + n'.val) :
    (iblk1 V c 3 t : S256x64.Idx → EReal) (ix2 n' g) = (V c main_v3 : S2048x64.Idx → EReal) (ix2 n g) := by
  obtain ⟨-, -, -, -, -, -, e0, e1, -⟩ := idx_facts t
  unfold iblk1
  rw [View.read_apply]
  show V c main_v3 _ = V c main_v3 _
  congr 1
  funext a
  apply Fin.ext
  match a with
  | ⟨0, _⟩ => show win1_3.index t (0 : Fin 2) * 256 + 1 * n'.val = n.val; rw [e0, hn]; omega
  | ⟨1, _⟩ => show win1_3.index t (1 : Fin 2) * 64 + 1 * g.val = g.val; rw [e1]; omega

/-- Column `n'` of the bias block at a point is column `n` of the bias row. -/
theorem bblk_apply (c : Dev nD) (t : Fin cfg1.N) (n' : Fin 256) (n : Fin 2048)
    (hn : n.val = win1_5.index t (1 : Fin 2) * 256 + n'.val) :
    (iblk1 V c 4 t : S1x256.Idx → EReal) (ix2 (0 : Fin 1) n') = (V c main_v7 : S1x2048.Idx → EReal) (ix2 (0 : Fin 1) n) := by
  obtain ⟨-, -, -, -, -, -, -, -, e0, e1, -⟩ := idx_facts t
  unfold iblk1
  rw [View.read_apply]
  show V c main_v7 _ = V c main_v7 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * n'.val = n.val; rw [e1, hn]; omega

/-! ## What a point writes back -/

/-- The layer of the blocks at a point, at row `b` and block column `n'`, is the layer of the arrays at `(b, n)`. -/
theorem layer_blocks (c : Dev nD) (t : Fin cfg1.N) (b : Fin 512) (n' : Fin 256) (n : Fin 2048)
    (hn : n.val = win1_5.index t (1 : Fin 2) * 256 + n'.val) :
    Cert.QLinear.linFlat (G := 64) rfl (iblk1 V c 0 t : S512x8192.Idx → EReal) (iblk1 V c 1 t : S256x8192.Idx → BitVec 32)
      (iblk1 V c 2 t : S256x64.Idx → EReal) (iblk1 V c 3 t : S256x64.Idx → EReal) (iblk1 V c 4 t : S1x256.Idx → EReal) b n'
      = layer V c (ix2 b n) := by
  refine (Cert.QLinear.linFlat_rows (G := 64) rfl (V c main_v6 : S512x8192.Idx → EReal) (iblk1 V c 0 t : S512x8192.Idx → EReal)
    (V c main_v1 : S2048x8192.Idx → BitVec 32) (iblk1 V c 1 t : S256x8192.Idx → BitVec 32)
    (V c main_arg6 : S2048x64.Idx → EReal) (V c main_v3 : S2048x64.Idx → EReal)
    (iblk1 V c 2 t : S256x64.Idx → EReal) (iblk1 V c 3 t : S256x64.Idx → EReal)
    (V c main_v7 : S1x2048.Idx → EReal) (iblk1 V c 4 t : S1x256.Idx → EReal)
    (win1_5.index t (1 : Fin 2) * 256) b n' n hn
    (fun k => xblk_apply V c t b k) (fun k => qblk_apply V c t n' k n hn) (fun g => sblk_apply V c t n' g n hn)
    (fun g => zblk_apply V c t n' g n hn) (bblk_apply V c t n' n hn))

/-- WHAT POINT `t` WRITES BACK is block `t` of `layer`. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold outsAt1
  rw [Blk1.out1_A_5_eq]
  obtain ⟨-, -, -, -, -, -, -, -, -, -, e0, e1⟩ := idx_facts t
  funext j
  obtain ⟨b, n', rfl⟩ : ∃ (b : Fin 512) (n' : Fin 256), j = ix2 b n' := ⟨j 0, j 1, eq_ix2 j⟩
  have hlt : win1_5.index t (1 : Fin 2) * 256 + n'.val < 2048 := by have := n'.isLt; omega
  rw [View.read_apply]
  refine (layer_blocks V c t b n' ⟨win1_5.index t (1 : Fin 2) * 256 + n'.val, hlt⟩ rfl).trans ?_
  show layer V c _ = layer V c _
  congr 1
  funext a
  apply Fin.ext
  match a with
  | ⟨0, _⟩ => show b.val = win1_5.index t (0 : Fin 2) * 512 + 1 * b.val; rw [e0]; omega
  | ⟨1, _⟩ => show win1_5.index t (1 : Fin 2) * 256 + n'.val = win1_5.index t (1 : Fin 2) * 256 + 1 * n'.val; omega

/-! ## The blocks cover the array -/

/-- An index of the array is in point `t`'s block iff each coordinate is in the block's range on its axis. -/
theorem mem_blk (t : Fin cfg1.N) (i : S512x2048.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v8).slice (win1_5.rect t)).set ↔ _
  rw [View.set_slice_whole, Rect.mem_set_unit]
  exact Iff.rfl

/-- Every index of the output array is in the block of some point that writes back: column `n` in block `n / 256`. -/
theorem cover (i : S512x2048.Idx) :
    ∃ t : Fin cfg1.N, (cfg1.win 5).flush t = true ∧ i ∈ ((cfg1.win 5).blk t).view.set := by
  have hi0 : (i 0).val < 512 := (i 0).isLt
  have hi1 : (i 1).val < 2048 := (i 1).isLt
  obtain ⟨t, ht⟩ := idx_onto ⟨(i 1).val / 256, by omega⟩
  have q0 : win1_5.index t (0 : Fin 2) = 0 := congrFun ht 0
  have q1 : win1_5.index t (1 : Fin 2) = (i 1).val / 256 := congrFun ht 1
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 256 ≤ (i 1).val ∧ (i 1).val < win1_5.index t (1 : Fin 2) * 256 + 256; omega

/-! ## The array after the launch -/

/-- The launch leaves in its output array the second layer of the arrays as it finds them. -/
theorem final1 (c : Dev nD) : (dat1 V c).arrAt 5 cfg1.N
    = fun i => Cert.QLinear.linFlat (G := 64) rfl (V c main_v6 : S512x8192.Idx → EReal) (V c main_v1 : S2048x8192.Idx → BitVec 32)
        (V c main_arg6 : S2048x64.Idx → EReal) (V c main_v3 : S2048x64.Idx → EReal) (V c main_v7 : S1x2048.Idx → EReal) (i 0) (i 1) :=
  (dat1 V c).arrAt_eq_of_cover 5 (layer V c) (fun t _ => flushed_eq V c t) cover

end Cert.KernelIdeal.Region1

end
-- ==== Proof.Glue.lean ====
/-
  The host operations around the two regions, read at an index.

  Before the first region the host reshapes the two code tensors `[N, G, 128] → [N, 128·G]` (entry `(n, k)` is the code
  of group `k / 128`, position `k % 128`, since the flat offset `n·K + k` equals `(n·G + k / 128)·128 + k % 128`), forms
  the two tables of products `z·s`, narrows the input's format (the identity over the extended reals) and reshapes
  the first bias to a row; between the regions it reshapes the second bias to a row.  The contents of the buffers at
  each region's entry are a fold of these operations over the launch memory; each statement walks one buffer back
  through that fold: a buffer an operation wrote is that operation's value, any other buffer is what it was before,
  and the first region changes only its own arrays, its output array being what its pipeline leaves.
-/
import proofs.«157148_j22162031247829_2_alg».proof.Proof.Gen.KernelIdeal.Frame
import proofs.«157148_j22162031247829_2_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Glue

open Cert.KernelIdeal Cert.KernelIdeal.Gen Idealize.ShloMosaic Idealize.ShloMosaic.TcCoe Idealize.SL.Sem Idealize.ShloMosaic.ValueIdx Cert.QLinear

variable (m : (ℓ : Loc nD τ sig) → Buf (Elt Ideal) ℓ) (ρ : Dev nD → PrngReg) (c : Dev nD)

/-! ## Region 0's entry contents: the host operations before it, read at an index -/

/-- The input converted to the narrower format is, over the extended reals, the input. -/
theorem V1_x : ∀ i, V1 m ρ c main_v4 i = m ((c : Thread nD τ).loc main_arg0) i := by
  intro i
  have e : V1 m ρ c main_v4
      = (truncf (F := Ideal) (s := S512x2048) (φ := .f32) .bf16 (m ((c : Thread nD τ).loc main_arg0)) bitsLt_bf16_f32 : FVec Ideal S512x2048 .bf16) := by
    dsimp only [V1, W1, hostOps0]
    after_results
  rw [e]
  rfl

/-- The first layer's codes reshaped `[8192, 16, 128] → [8192, 2048]`: entry `(n, k)` is the code of group `k / 128`,
    position `k % 128` (the flat offset `n·2048 + k` is `(n·16 + k / 128)·128 + k % 128`). -/
theorem V1_q : ∀ (n : Fin 8192) (k : Fin 2048),
    V1 m ρ c main_v0 (ix2 n k) = m ((c : Thread nD τ).loc main_arg1) (ix3 n (grpOf (G := 16) rfl k) (posOf k)) := by
  intro n k
  have e : V1 m ρ c main_v0
      = (shapeCast S8192x2048 (m ((c : Thread nD τ).loc main_arg1) : S8192x16x128.Idx → BitVec 32) shapeCasts_S8192x16x128_S8192x2048 : S8192x2048.Idx → BitVec 32) := by
    dsimp only [V1, W1, hostOps0]
    after_results
    rfl
  rw [e]
  have hk : k.val < 2048 := k.isLt
  exact shapeCast_apply _ shapeCasts_S8192x16x128_S8192x2048 (ix2 n k) (ix3 n (grpOf (G := 16) rfl k) (posOf k))
    (by rw [Shape.rowMajor_val_three, Shape.rowMajor_val_two]
        show (n.val * 16 + k.val / 128) * 128 + k.val % 128 = n.val * 2048 + k.val
        omega)

/-- No host operation writes the first layer's scales. -/
theorem V1_s : V1 m ρ c main_arg2 = m ((c : Thread nD τ).loc main_arg2) := by
  dsimp only [V1, W1, hostOps0]
  after_results

/-- The table of products `z·s`, first layer, as a whole table. -/
theorem V1_zs_eq : V1 m ρ c main_v2
    = (mulf (F := Ideal) (s := S8192x16) (φ := .f32) (m ((c : Thread nD τ).loc main_arg3)) (m ((c : Thread nD τ).loc main_arg2)) : FVec Ideal S8192x16 .f32) := by
  dsimp only [V1, W1, hostOps0]
  after_results

/-- The same entry by entry, the two factors named at their literal type. -/
theorem V1_zs (z s : FVec Ideal S8192x16 .f32) (hz : z = m ((c : Thread nD τ).loc main_arg3)) (hs : s = m ((c : Thread nD τ).loc main_arg2)) :
    ∀ i, V1 m ρ c main_v2 i = z i * s i := by
  intro i
  rw [V1_zs_eq, hz, hs]
  rfl

/-- The first layer's bias reshaped to a row: entry `(0, n)` is the bias of feature `n`. -/
theorem V1_b : ∀ n : Fin 8192, V1 m ρ c main_v5 (ix2 (0 : Fin 1) n) = m ((c : Thread nD τ).loc main_arg4) (ix1 n) := by
  intro n
  have e : V1 m ρ c main_v5
      = (shapeCast S1x8192 (m ((c : Thread nD τ).loc main_arg4) : S8192.Idx → EReal) shapeCasts_S8192_S1x8192 : S1x8192.Idx → EReal) := by
    dsimp only [V1, W1, hostOps0]
    after_results
    rfl
  rw [e]
  exact shapeCast_apply _ shapeCasts_S8192_S1x8192 (ix2 (0 : Fin 1) n) (ix1 n)
    (by rw [Shape.rowMajor_val_one, Shape.rowMajor_val_two]
        show n.val = 0 * 8192 + n.val
        omega)

/-! ## Region 1's entry contents -/

/-- The one host operation between the regions writes only the second bias row. -/
theorem W3_of_ne (b : Ref sig .tc) (hb : b ≠ main_v7) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The hidden activation entering the second region is what the first region's pipeline leaves in its output array. -/
theorem V3_h : V3 m ρ c main_v6 = (dat0 (V1 m ρ) c).arrAt 5 cfg0.N :=
  (W3_of_ne m ρ c main_v6 (by decide)).trans (W2_arr m ρ c 5)

/-- The second layer's codes reshaped `[2048, 64, 128] → [2048, 8192]`: entry `(n, k)` is the code of group `k / 128`,
    position `k % 128`. -/
theorem V3_q : ∀ (n : Fin 2048) (k : Fin 8192),
    V3 m ρ c main_v1 (ix2 n k) = m ((c : Thread nD τ).loc main_arg5) (ix3 n (grpOf (G := 64) rfl k) (posOf k)) := by
  intro n k
  have e1 : W1 m ρ c (Proc.devRef .tc main_v1)
      = (shapeCast S2048x8192 (m ((c : Thread nD τ).loc main_arg5) : S2048x64x128.Idx → BitVec 32) shapeCasts_S2048x64x128_S2048x8192 : S2048x8192.Idx → BitVec 32) := by
    dsimp only [W1, hostOps0]
    after_results
    rfl
  have e : V3 m ρ c main_v1
      = (shapeCast S2048x8192 (m ((c : Thread nD τ).loc main_arg5) : S2048x64x128.Idx → BitVec 32) shapeCasts_S2048x64x128_S2048x8192 : S2048x8192.Idx → BitVec 32) :=
    (W3_of_ne m ρ c main_v1 (by decide)).trans ((W2_of_ne m ρ c main_v1 (by decide)).trans e1)
  rw [e]
  have hk : k.val < 8192 := k.isLt
  exact shapeCast_apply _ shapeCasts_S2048x64x128_S2048x8192 (ix2 n k) (ix3 n (grpOf (G := 64) rfl k) (posOf k))
    (by rw [Shape.rowMajor_val_three, Shape.rowMajor_val_two]
        show (n.val * 64 + k.val / 128) * 128 + k.val % 128 = n.val * 8192 + k.val
        omega)

/-- Nothing before the second region writes the second layer's scales. -/
theorem V3_s : V3 m ρ c main_arg6 = m ((c : Thread nD τ).loc main_arg6) :=
  (W3_of_ne m ρ c main_arg6 (by decide)).trans ((W2_of_ne m ρ c main_arg6 (by decide)).trans (by
    dsimp only [W1, hostOps0]
    after_results))

/-- The table of products `z·s`, second layer, as a whole table. -/
theorem V3_zs_eq : V3 m ρ c main_v3
    = (mulf (F := Ideal) (s := S2048x64) (φ := .f32) (m ((c : Thread nD τ).loc main_arg7)) (m ((c : Thread nD τ).loc main_arg6)) : FVec Ideal S2048x64 .f32) :=
  (W3_of_ne m ρ c main_v3 (by decide)).trans ((W2_of_ne m ρ c main_v3 (by decide)).trans (by
    dsimp only [W1, hostOps0]
    after_results))

/-- The same entry by entry, the two factors named at their literal type. -/
theorem V3_zs (z s : FVec Ideal S2048x64 .f32) (hz : z = m ((c : Thread nD τ).loc main_arg7)) (hs : s = m ((c : Thread nD τ).loc main_arg6)) :
    ∀ i, V3 m ρ c main_v3 i = z i * s i := by
  intro i
  rw [V3_zs_eq, hz, hs]
  rfl

/-- The second layer's bias reshaped to a row, by the host operation between the regions: entry `(0, n)` is the bias of
    feature `n`; the bias itself is as launched, no region and no host operation writing it. -/
theorem V3_b : ∀ n : Fin 2048, V3 m ρ c main_v7 (ix2 (0 : Fin 1) n) = m ((c : Thread nD τ).loc main_arg8) (ix1 n) := by
  intro n
  have e8 : W2 m ρ c (Proc.devRef .tc main_arg8) = m ((c : Thread nD τ).loc main_arg8) :=
    (W2_of_ne m ρ c main_arg8 (by decide)).trans (by
      dsimp only [W1, hostOps0]
      after_results)
  have e0 : V3 m ρ c main_v7
      = (shapeCast S1x2048 (W2 m ρ c (Proc.devRef .tc main_arg8) : S2048.Idx → EReal) shapeCasts_S2048_S1x2048 : S1x2048.Idx → EReal) := by
    dsimp only [V3, W3, hostOps1]
    after_results
    rfl
  rw [e0, e8]
  exact shapeCast_apply _ shapeCasts_S2048_S1x2048 (ix2 (0 : Fin 1) n) (ix1 n)
    (by rw [Shape.rowMajor_val_one, Shape.rowMajor_val_two]
        show n.val = 0 * 2048 + n.val
        omega)

end Cert.KernelIdeal.Glue

end
-- ==== Proof.Finite.lean ====
/-
  Finiteness of the scale and zero-point tables, read back from the precondition.

  The precondition is a conjunction of seven one-bit words, one per floating-point argument; the word for an
  argument `a` is the conjunction, over ALL of its entries, of the comparison `|a i| < +∞`, where `|x|` is
  `max x (-x)` on the extended reals.  If the whole conjunction is 1 then each of the seven words is 1, so each
  comparison is 1 at every entry.  An extended real `x` with `max x (-x) < ⊤` is neither `⊤` (then `max x (-x) = ⊤`)
  nor `⊥` (then `-x = ⊤`), hence a real number.  This is stated once for an array of arbitrary shape and used for
  the two scale tables and the two zero-point tables.
-/
import proofs.«157148_j22162031247829_2_alg».proof.Pre_finite_inputs
import proofs.«157148_j22162031247829_2_alg».proof.Proof.Gen.Pre_finite_inputs
import Idealize.ShloMosaic.Lib.ReduceAll
import Idealize.ShloMosaic.Lib.ValueIdx
import Idealize.ShloMosaic.PureOps.Ideal

namespace Cert.Pre_finite_inputs.Finite

open Idealize.ShloMosaic Idealize.ShloMosaic.ValueIdx

/-- The rank-0 shape has exactly one index. -/
instance subsingleton_idx0 : Subsingleton S_.Idx := ⟨fun _ _ => funext fun d => d.elim0⟩

/-- An extended real whose absolute value `max x (-x)` compares strictly below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The conjunction over all entries of `|a i| < +∞` being 1 makes every entry of `a` a real number. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32))) init hr hu j = 1#1)
    (i : s.Idx) : ∃ r : ℝ, a i = (r : EReal) := by
  have hi := Host.reduce_andi_all _ init hr hu j e i
  exact real_of_abs_lt_top (a i) hi

/-- Where the precondition holds (its one-bit result is 1), every entry of the four scale and zero-point tables is a real number. -/
theorem tables_real [Cert.Pre_finite_inputs.Facts]
    (a0 : FVec Ideal S512x2048 .f32) (a1 : IVec S8192x16x128 32) (a2 a3 : FVec Ideal S8192x16 .f32) (a4 : FVec Ideal S8192 .f32)
    (a5 : IVec S2048x64x128 32) (a6 a7 : FVec Ideal S2048x64 .f32) (a8 : FVec Ideal S2048 .f32)
    (h : Cert.Pre_finite_inputs.fn (F := Ideal) a0 a1 a2 a3 a4 a5 a6 a7 a8 = fun _ => 1#1) :
    (∀ i, ∃ r : ℝ, a2 i = (r : EReal)) ∧ (∀ i, ∃ r : ℝ, a3 i = (r : EReal)) ∧ (∀ i, ∃ r : ℝ, a6 i = (r : EReal)) ∧ (∀ i, ∃ r : ℝ, a7 i = (r : EReal)) := by
  have h0 := congrFun h ix0
  dsimp only [Cert.Pre_finite_inputs.fn, Cert.Pre_finite_inputs.fn_part1] at h0
  -- the seven words, outermost conjunction first
  obtain ⟨h28, -⟩ := IntOp.andi_eq_one.1 h0
  obtain ⟨h23, e7⟩ := IntOp.andi_eq_one.1 h28
  obtain ⟨h18, e6⟩ := IntOp.andi_eq_one.1 h23
  obtain ⟨h13, -⟩ := IntOp.andi_eq_one.1 h18
  obtain ⟨h8, e3⟩ := IntOp.andi_eq_one.1 h13
  obtain ⟨-, e2⟩ := IntOp.andi_eq_one.1 h8
  exact ⟨all_real a2 _ _ _ _ _ e2, all_real a3 _ _ _ _ _ e3, all_real a6 _ _ _ _ _ e6, all_real a7 _ _ _ _ _ e7⟩

end Cert.Pre_finite_inputs.Finite
-- ==== Proof.KernelValue.lean ====
/-
  The idealized kernel's result array is the specification of its arguments.

  The result buffer ends at what the second launch's write-backs fold to: the second layer (over flat operands) of
  the arrays that launch finds.  Those are the first launch's output — the first layer of the arrays IT finds,
  followed by max · 0 — and host re-layouts of the arguments: the codes reshaped from `[N, G, 128]` to `[N, 128·G]`,
  the products `z·s`, the bias as a row, the input narrowed to a float format (the identity on extended reals).
  Undoing the re-layouts turns each flat layer into the layer over the grouped operands with weight entries
  `q·s − z·s`; and where the scales and zero points are real numbers, as the precondition says, that is the
  specification's `(q − z)·s`.
-/
import proofs.«157148_j22162031247829_2_alg».proof.Proof.Gen.KernelIdeal.Frame
import proofs.«157148_j22162031247829_2_alg».proof.Proof.Gen.Pre_finite_inputs
import proofs.«157148_j22162031247829_2_alg».proof.Defs
import proofs.«157148_j22162031247829_2_alg».proof.Proof.Region0
import proofs.«157148_j22162031247829_2_alg».proof.Proof.Region1
import proofs.«157148_j22162031247829_2_alg».proof.Proof.Glue
import proofs.«157148_j22162031247829_2_alg».proof.Proof.SpecLaws
import proofs.«157148_j22162031247829_2_alg».proof.Proof.Finite

noncomputable section

namespace Cert.KernelIdeal.Value

open Cert.KernelIdeal Cert.KernelIdeal.Gen Cert.KernelIdeal.Glue Cert.QLinear
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The first launch's output array is the hidden activation of the arguments, with weight entries `q·s − z·s`. -/
theorem hidden_eq : (dat0 (V1 m ρ) c).arrAt 5 cfg0.N
    = hidden (wgtK (m ((c : Thread nD τ).loc main_arg1)) (m ((c : Thread nD τ).loc main_arg2)) (m ((c : Thread nD τ).loc main_arg3)))
        (m ((c : Thread nD τ).loc main_arg0)) (m ((c : Thread nD τ).loc main_arg4)) := by
  rw [Region0.final0]
  funext i
  have ex : (V1 m ρ c main_v4 : S512x2048.Idx → EReal) = m ((c : Thread nD τ).loc main_arg0) := funext (V1_x m ρ c)
  rw [ex, V1_s]
  exact congrArg (max · 0) (linFlat_eq_lin (G := 16) rfl _ _ _ _ _ (m ((c : Thread nD τ).loc main_arg1)) (m ((c : Thread nD τ).loc main_arg3))
    (m ((c : Thread nD τ).loc main_arg4)) (V1_q m ρ c) (fun n g => V1_zs m ρ c _ _ rfl rfl (ix2 n g)) (V1_b m ρ c) (i 0) (i 1))

/-- The second launch's output array is the output layer of that hidden activation. -/
theorem output_eq : (dat1 (V3 m ρ) c).arrAt 5 cfg1.N
    = mlpK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [Region1.final1]
  funext i
  rw [V3_h, hidden_eq, V3_s]
  exact linFlat_eq_lin (G := 64) rfl _ _ _ _ _ (m ((c : Thread nD τ).loc main_arg5)) (m ((c : Thread nD τ).loc main_arg7))
    (m ((c : Thread nD τ).loc main_arg8)) (V3_q m ρ c) (fun n g => V3_zs m ρ c _ _ rfl rfl (ix2 n g)) (V3_b m ρ c) (i 0) (i 1)

/-- The result buffer at the end of the run, under the precondition, is the specification. -/
theorem kernel_value
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = fun _ => 1#1) :
    W4 m ρ c (Proc.devRef .tc main_v8)
      = mlp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  obtain ⟨hs1, hz1, hs2, hz2⟩ := Cert.Pre_finite_inputs.Finite.tables_real _ _ _ _ _ _ _ _ _ hpre
  refine ((W4_arr m ρ c 5).trans (output_eq m ρ c)).trans ?_
  exact mlpK_eq_mlp _ _ _ _ _ _ _ _ _ hs1 hz1 hs2 hz2

end Cert.KernelIdeal.Value

end
-- ==== Proof.RefValue.lean ====
/-
  The reference computes the specification.

  For each layer the reference forms the weight table as a matrix: it reads the codes as numbers, subtracts the
  zero point and multiplies by the scale (both broadcast along the 128 positions of a group), reshapes
  `[N, G, 128] → [N, K]` and transposes to `[K, N]`.  Read at `(k, n)` the table is therefore the weight entry of
  output feature `n`, group `k / 128`, position `k % 128`: the reshape sends the flat offset `n·K + k` to
  `(n, k / 128, k % 128)` because `k < K = 128·G`.  The contraction with that table over `k`, plus the bias row
  broadcast over the batch, is the specification's linear layer; the first layer is followed by the maximum with
  the constant zero, the second is not.  Each statement below is read off entry by entry.
-/
import proofs.«157148_j22162031247829_2_alg».proof.Proof.Spec
import proofs.«157148_j22162031247829_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-! ## The first layer's weight table -/

/-- Reshape then transpose, first layer: the table's entry `(k, n)` is read at `(n, k / 128, k % 128)`. -/
theorem idx_w1 (k : Fin 2048) (n : Fin 8192) :
    idx_main_v7 (idx_main_v8 (ix2 k n)) = ix3 n (Cert.QLinear.grpOf (G := 16) rfl k) (Cert.QLinear.posOf k) := by
  have hk : k.val < 2048 := k.isLt
  have hn : n.val < 8192 := n.isLt
  funext a
  apply Fin.ext
  match a with
  | ⟨0, _⟩ => show (n.val * 2048 + k.val) / 2048 = n.val; omega
  | ⟨1, _⟩ => show (n.val * 2048 + k.val) / 128 % 16 = k.val / 128; omega
  | ⟨2, _⟩ => show (n.val * 2048 + k.val) % 128 = k.val % 128; omega

/-- The two broadcasts of a per-group table along the positions read it at `(n, g)`. -/
theorem idx_z1 (n : Fin 8192) (g : Fin 16) (j : Fin 128) : idx_main_v1 (idx_main_v2 (ix3 n g j)) = ix2 n g :=
  funext fun a => Fin.ext (by match a with | ⟨0, _⟩ => rfl | ⟨1, _⟩ => rfl)
theorem idx_s1 (n : Fin 8192) (g : Fin 16) (j : Fin 128) : idx_main_v4 (idx_main_v5 (ix3 n g j)) = ix2 n g :=
  funext fun a => Fin.ext (by match a with | ⟨0, _⟩ => rfl | ⟨1, _⟩ => rfl)

/-- The first layer's table at `(k, n)` is the weight entry `(q − z)·s` of feature `n`, group `k / 128`, position `k % 128`. -/
theorem w1_apply (x1 : IVec S8192x16x128 32) (x2 x3 : FVec Ideal S8192x16 .f32) (k : Fin 2048) (n : Fin 8192) :
    val_main_v8 (F := Ideal) x1 x2 x3 (ix2 k n)
      = Cert.QLinear.wgt x1 x2 x3 n (Cert.QLinear.grpOf (G := 16) rfl k) (Cert.QLinear.posOf k) := by
  rw [val_main_v8_apply, val_main_v7_apply, idx_w1, val_main_v6_apply, val_main_v3_apply, val_main_v0_apply,
    val_main_v2_apply, val_main_v1_apply, idx_z1, val_main_v5_apply, val_main_v4_apply, idx_s1]
  rfl

/-! ## The second layer's weight table -/

/-- Reshape then transpose, second layer: the table's entry `(k, n)` is read at `(n, k / 128, k % 128)`. -/
theorem idx_w2 (k : Fin 8192) (n : Fin 2048) :
    idx_main_v21 (idx_main_v22 (ix2 k n)) = ix3 n (Cert.QLinear.grpOf (G := 64) rfl k) (Cert.QLinear.posOf k) := by
  have hk : k.val < 8192 := k.isLt
  have hn : n.val < 2048 := n.isLt
  funext a
  apply Fin.ext
  match a with
  | ⟨0, _⟩ => show (n.val * 8192 + k.val) / 8192 = n.val; omega
  | ⟨1, _⟩ => show (n.val * 8192 + k.val) / 128 % 64 = k.val / 128; omega
  | ⟨2, _⟩ => show (n.val * 8192 + k.val) % 128 = k.val % 128; omega

theorem idx_z2 (n : Fin 2048) (g : Fin 64) (j : Fin 128) : idx_main_v15 (idx_main_v16 (ix3 n g j)) = ix2 n g :=
  funext fun a => Fin.ext (by match a with | ⟨0, _⟩ => rfl | ⟨1, _⟩ => rfl)
theorem idx_s2 (n : Fin 2048) (g : Fin 64) (j : Fin 128) : idx_main_v18 (idx_main_v19 (ix3 n g j)) = ix2 n g :=
  funext fun a => Fin.ext (by match a with | ⟨0, _⟩ => rfl | ⟨1, _⟩ => rfl)

/-- The second layer's table at `(k, n)` is the weight entry `(q − z)·s` of feature `n`, group `k / 128`, position `k % 128`. -/
theorem w2_apply (x5 : IVec S2048x64x128 32) (x6 x7 : FVec Ideal S2048x64 .f32) (k : Fin 8192) (n : Fin 2048) :
    val_main_v22 (F := Ideal) x5 x6 x7 (ix2 k n)
      = Cert.QLinear.wgt x5 x6 x7 n (Cert.QLinear.grpOf (G := 64) rfl k) (Cert.QLinear.posOf k) := by
  rw [val_main_v22_apply, val_main_v21_apply, idx_w2, val_main_v20_apply, val_main_v17_apply, val_main_v14_apply,
    val_main_v16_apply, val_main_v15_apply, idx_z2, val_main_v19_apply, val_main_v18_apply, idx_s2]
  rfl

/-! ## The two layers -/

/-- The contraction's operand indices, first layer. -/
theorem lidx1 (b : Fin 512) (n : Fin 8192) (k : Fin 2048) : lidx_main_v9 (ix2 b n) k = ix2 b k :=
  funext fun a => Fin.ext (by match a with | ⟨0, _⟩ => rfl | ⟨1, _⟩ => rfl)
theorem ridx1 (b : Fin 512) (n : Fin 8192) (k : Fin 2048) : ridx_main_v9 (ix2 b n) k = ix2 k n :=
  funext fun a => Fin.ext (by match a with | ⟨0, _⟩ => rfl | ⟨1, _⟩ => rfl)
/-- The bias row broadcast over the batch reads the bias at the feature. -/
theorem idx_b1 (b : Fin 512) (n : Fin 8192) : idx_main_v10 (idx_main_v11 (ix2 b n)) = ix1 n :=
  funext fun a => Fin.ext (by match a with | ⟨0, _⟩ => rfl)

/-- The reference's hidden activation is the specification's. -/
theorem hidden_eq (x0 : FVec Ideal S512x2048 .f32) (x1 : IVec S8192x16x128 32) (x2 x3 : FVec Ideal S8192x16 .f32)
    (x4 : FVec Ideal S8192 .f32) :
    val_main_v13 (F := Ideal) x0 x1 x2 x3 x4 = Cert.QLinear.hidden (Cert.QLinear.wgt x1 x2 x3) x0 x4 := by
  funext i
  obtain ⟨b, n, rfl⟩ : ∃ (b : Fin 512) (n : Fin 8192), i = ix2 b n := ⟨i 0, i 1, eq_ix2 i⟩
  rw [val_main_v13_apply, val_main_v12_apply, val_main_v9_apply, val_main_v11_apply, val_main_v10_apply, idx_b1,
    val_main_call0_v0_apply, val_main_call0_cst_apply, Ideal.ofBits_def, Ideal.ofBits_zero_f32,
    Ideal.maximumf_def, Ideal.addf_def]
  unfold Cert.QLinear.hidden Cert.QLinear.lin
  congr 2
  refine Finset.sum_congr rfl fun k _ => ?_
  rw [lidx1, ridx1, w1_apply]

/-- The contraction's operand indices, second layer. -/
theorem lidx2 (b : Fin 512) (n : Fin 2048) (k : Fin 8192) : lidx_main_v23 (ix2 b n) k = ix2 b k :=
  funext fun a => Fin.ext (by match a with | ⟨0, _⟩ => rfl | ⟨1, _⟩ => rfl)
theorem ridx2 (b : Fin 512) (n : Fin 2048) (k : Fin 8192) : ridx_main_v23 (ix2 b n) k = ix2 k n :=
  funext fun a => Fin.ext (by match a with | ⟨0, _⟩ => rfl | ⟨1, _⟩ => rfl)
theorem idx_b2 (b : Fin 512) (n : Fin 2048) : idx_main_v24 (idx_main_v25 (ix2 b n)) = ix1 n :=
  funext fun a => Fin.ext (by match a with | ⟨0, _⟩ => rfl)

/-- The reference's result, as the generated stage `val_main_v26` of its nine arguments, is the specification. -/
theorem ref_eq (x0 : FVec Ideal S512x2048 .f32) (x1 : IVec S8192x16x128 32) (x2 x3 : FVec Ideal S8192x16 .f32) (x4 : FVec Ideal S8192 .f32)
    (x5 : IVec S2048x64x128 32) (x6 x7 : FVec Ideal S2048x64 .f32) (x8 : FVec Ideal S2048 .f32) :
    val_main_v26 (F := Ideal) x0 x1 x2 x3 x4 x5 x6 x7 x8 = Cert.QLinear.mlp x0 x1 x2 x3 x4 x5 x6 x7 x8 := by
  funext i
  obtain ⟨b, n, rfl⟩ : ∃ (b : Fin 512) (n : Fin 2048), i = ix2 b n := ⟨i 0, i 1, eq_ix2 i⟩
  rw [val_main_v26_apply, val_main_v23_apply, val_main_v25_apply, val_main_v24_apply, idx_b2, hidden_eq, Ideal.addf_def]
  unfold Cert.QLinear.mlp Cert.QLinear.output Cert.QLinear.lin
  congr 1
  refine Finset.sum_congr rfl fun k _ => ?_
  rw [lidx2, ridx2, w2_apply]

end Cert.ReferenceIdeal.RefValue

end
-- ==== Proof.lean ====
/-
  The certificate: a two-layer perceptron with 4-bit group-quantised weights, computed by two pipelined kernel
  launches, against its plain reference, over the extended reals.

  Both programs compute `out = h · W₂ᵀ + b₂` with `h = max (x · W₁ᵀ + b₁) 0`, where a weight entry is stored as a
  4-bit code `q`, a per-group scale `s` and a per-group zero point `z` (groups of 128 along the input axis).  The
  reference forms the entry as `(q − z)·s` and multiplies whole matrices.  The kernel forms it as `q·s − z·s` (the
  products `z·s` computed once on the host), walks the input features 512 at a time and accumulates the chunks'
  products from zero, eight output tiles per layer.  Over the extended reals a sum may be taken in any order and
  any grouping, and a change of float format is the identity, so the only law that joins the two sides is
  distributivity, `(q − z)·s = q·s − z·s`, which holds because the precondition makes every scale and zero point a
  real number.

  The three frames are the generated ones (the reference's is its generated run with the result dropped); the ideal
  pass rewrote nothing, so the preservation claim is trivial; the algebraic claim puts the kernel's run (its result
  array read through the two launches' write-backs) beside the reference's run, both at the specification `mlp`.
-/
import proofs.«157148_j22162031247829_2_alg».proof.Defs
import proofs.«157148_j22162031247829_2_alg».proof.Proof.Gen.Kernel
import proofs.«157148_j22162031247829_2_alg».proof.Proof.Gen.Kernel.Skeleton
import proofs.«157148_j22162031247829_2_alg».proof.Proof.Gen.Kernel.Launch
import proofs.«157148_j22162031247829_2_alg».proof.Proof.Gen.Kernel.Points
import proofs.«157148_j22162031247829_2_alg».proof.Proof.Gen.Kernel.Frame
import proofs.«157148_j22162031247829_2_alg».proof.Proof.Gen.KernelIdeal
import proofs.«157148_j22162031247829_2_alg».proof.Proof.Gen.KernelIdeal.Skeleton
import proofs.«157148_j22162031247829_2_alg».proof.Proof.Gen.KernelIdeal.Launch
import proofs.«157148_j22162031247829_2_alg».proof.Proof.Gen.KernelIdeal.Points
import proofs.«157148_j22162031247829_2_alg».proof.Proof.Gen.KernelIdeal.Frame
import proofs.«157148_j22162031247829_2_alg».proof.Proof.Gen.ReferenceIdeal
import proofs.«157148_j22162031247829_2_alg».proof.Proof.Gen.ReferenceIdeal.Run
import proofs.«157148_j22162031247829_2_alg».proof.Proof.Gen.ReferenceIdeal.Read
import proofs.«157148_j22162031247829_2_alg».proof.Proof.Gen.Pre_finite_inputs
import proofs.«157148_j22162031247829_2_alg».proof.Proof.KernelRun
import proofs.«157148_j22162031247829_2_alg».proof.Proof.KernelValue
import proofs.«157148_j22162031247829_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end at the specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.QLinear.mlp (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7))
      (m ((c.tc : Thread _ _).loc Cert.KernelIdeal.main_arg8)), ?_, ?_⟩
  · exact (θ_run Cert.KernelIdeal.defs _ _).mono
      (fun r h c => ⟨(h c).1.trans (Cert.KernelIdeal.Value.kernel_value m ρ c (hpre c)), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (Cert.ReferenceIdeal.Read.val_main_v26_eq _ _ _ _ _ _ _ _ _).trans (Cert.ReferenceIdeal.RefValue.ref_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
